-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x64 : Shape := ⟨2, ![65536, 64]⟩
abbrev S256x512 : Shape := ⟨2, ![256, 512]⟩
abbrev S64x512 : Shape := ⟨2, ![64, 512]⟩
abbrev S512x512 : Shape := ⟨2, ![512, 512]⟩
abbrev S512x2 : Shape := ⟨2, ![512, 2]⟩
abbrev S2x512 : Shape := ⟨2, ![2, 512]⟩
abbrev S2x1 : Shape := ⟨2, ![2, 1]⟩
abbrev S_ : Shape := ⟨0, ![]⟩
abbrev S256x256 : Shape := ⟨2, ![256, 256]⟩
abbrev S256x1 : Shape := ⟨2, ![256, 1]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x64 : S_.BroadcastsInDim S65536x64 (![] : Fin 0 → Fin S65536x64.rank)
  reducesTo_S65536x64_S_d0_1 : S65536x64.ReducesTo [0, 1] S_
  bcast_S_S256x512 : S_.BroadcastsInDim S256x512 (![] : Fin 0 → Fin S256x512.rank)
  reducesTo_S256x512_S_d0_1 : S256x512.ReducesTo [0, 1] S_
  bcast_S_S64x512 : S_.BroadcastsInDim S64x512 (![] : Fin 0 → Fin S64x512.rank)
  reducesTo_S64x512_S_d0_1 : S64x512.ReducesTo [0, 1] S_
  bcast_S_S512x512 : S_.BroadcastsInDim S512x512 (![] : Fin 0 → Fin S512x512.rank)
  reducesTo_S512x512_S_d0_1 : S512x512.ReducesTo [0, 1] S_
  bcast_S_S512x2 : S_.BroadcastsInDim S512x2 (![] : Fin 0 → Fin S512x2.rank)
  reducesTo_S512x2_S_d0_1 : S512x2.ReducesTo [0, 1] S_
  bcast_S_S2x512 : S_.BroadcastsInDim S2x512 (![] : Fin 0 → Fin S2x512.rank)
  reducesTo_S2x512_S_d0_1 : S2x512.ReducesTo [0, 1] S_
  bcast_S_S2x1 : S_.BroadcastsInDim S2x1 (![] : Fin 0 → Fin S2x1.rank)
  reducesTo_S2x1_S_d0_1 : S2x1.ReducesTo [0, 1] S_
  slices_S512x512_S256x256_0_256 : S512x512.Slices ![0, 256] S256x256
  bcast_S_S256x256 : S_.BroadcastsInDim S256x256 (![] : Fin 0 → Fin S256x256.rank)
  reducesTo_S256x256_S_d0_1 : S256x256.ReducesTo [0, 1] S_
  slices_S512x512_S256x256_256_0 : S512x512.Slices ![256, 0] S256x256
  slices_S512x2_S256x1_0_1 : S512x2.Slices ![0, 1] S256x1
  bcast_S_S256x1 : S_.BroadcastsInDim S256x1 (![] : Fin 0 → Fin S256x1.rank)
  reducesTo_S256x1_S_d0_1 : S256x1.ReducesTo [0, 1] S_
  slices_S512x2_S256x1_256_0 : S512x2.Slices ![256, 0] S256x1

variable [Facts]

def fn_part3 {F : FTy → Type} [FloatOps F] (main_arg5 : FVec F S512x2 .f32) (main_v48 : IVec S_ 1) (main_v49 : FVec F S256x1 .f32) (main_v50 : FVec F S256x1 .f32) : IVec S_ 1 :=
  let main_v51 : IVec S256x1 1 := cmpf .oeq main_v49 main_v50
  let main_c_19 : IVec S_ 1 := constantI S_ 1 1#1
  let main_v52 : IVec S_ 1 := (fun x v => Host.reduce IntOp.andi x v reducesTo_S256x1_S_d0_1 h_S_) main_v51 main_c_19
  let main_v53 : IVec S_ 1 := andi main_v48 main_v52
  let main_v54 : FVec F S256x1 .f32 := (extractStridedSlice S256x1 ![256, 0] · slices_S512x2_S256x1_256_0) main_arg5
  let main_cst_20 : FVec F S_ .f32 := constant S_ .f32 0x00000000#32
  let main_v55 : FVec F S256x1 .f32 := broadcastInDim S256x1 ![] bcast_S_S256x1 main_cst_20
  let main_v56 : IVec S256x1 1 := cmpf .oeq main_v54 main_v55
  let main_c_21 : IVec S_ 1 := constantI S_ 1 1#1
  let main_v57 : IVec S_ 1 := (fun x v => Host.reduce IntOp.andi x v reducesTo_S256x1_S_d0_1 h_S_) main_v56 main_c_21
  let main_v58 : IVec S_ 1 := andi main_v53 main_v57
  main_v58

def fn_part2 {F : FTy → Type} [FloatOps F] (main_arg4 : FVec F S512x512 .f32) (main_arg5 : FVec F S512x2 .f32) (main_arg7 : FVec F S2x1 .f32) (main_v33 : IVec S_ 1) : IVec S_ 1 :=
  let main_v34 : FVec F S2x1 .f32 := Host.absf main_arg7
  let main_cst_12 : FVec F S_ .f32 := constant S_ .f32 0x7F800000#32
  let main_v35 : FVec F S2x1 .f32 := broadcastInDim S2x1 ![] bcast_S_S2x1 main_cst_12
  let main_v36 : IVec S2x1 1 := cmpf .olt main_v34 main_v35
  let main_c_13 : IVec S_ 1 := constantI S_ 1 1#1
  let main_v37 : IVec S_ 1 := (fun x v => Host.reduce IntOp.andi x v reducesTo_S2x1_S_d0_1 h_S_) main_v36 main_c_13
  let main_v38 : IVec S_ 1 := andi main_v33 main_v37
  let main_v39 : FVec F S256x256 .f32 := (extractStridedSlice S256x256 ![0, 256] · slices_S512x512_S256x256_0_256) main_arg4
  let main_cst_14 : FVec F S_ .f32 := constant S_ .f32 0x00000000#32
  let main_v40 : FVec F S256x256 .f32 := broadcastInDim S256x256 ![] bcast_S_S256x256 main_cst_14
  let main_v41 : IVec S256x256 1 := cmpf .oeq main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x256 .f32 := (extractStridedSlice S256x256 ![256, 0] · slices_S512x512_S256x256_256_0) main_arg4
  let main_cst_16 : FVec F S_ .f32 := constant S_ .f32 0x00000000#32
  let main_v45 : FVec F S256x256 .f32 := broadcastInDim S256x256 ![] bcast_S_S256x256 main_cst_16
  let main_v46 : IVec S256x256 1 := cmpf .oeq main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256x1 .f32 := (extractStridedSlice S256x1 ![0, 1] · slices_S512x2_S256x1_0_1) main_arg5
  let main_cst_18 : FVec F S_ .f32 := constant S_ .f32 0x00000000#32
  let main_v50 : FVec F S256x1 .f32 := broadcastInDim S256x1 ![] bcast_S_S256x1 main_cst_18
  fn_part3 (F := F) main_arg5 main_v48 main_v49 main_v50

def fn_part1 {F : FTy → Type} [FloatOps F] (main_arg4 : FVec F S512x512 .f32) (main_arg5 : FVec F S512x2 .f32) (main_arg6 : FVec F S2x512 .f32) (main_arg7 : FVec F S2x1 .f32) (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x2 .f32 := Host.absf main_arg5
  let main_cst_8 : FVec F S_ .f32 := constant S_ .f32 0x7F800000#32
  let main_v25 : FVec F S512x2 .f32 := broadcastInDim S512x2 ![] bcast_S_S512x2 main_cst_8
  let main_v26 : IVec S512x2 1 := cmpf .olt main_v24 main_v25
  let main_c_9 : IVec S_ 1 := constantI S_ 1 1#1
  let main_v27 : IVec S_ 1 := (fun x v => Host.reduce IntOp.andi x v reducesTo_S512x2_S_d0_1 h_S_) main_v26 main_c_9
  let main_v28 : IVec S_ 1 := andi main_v23 main_v27
  let main_v29 : FVec F S2x512 .f32 := Host.absf main_arg6
  let main_cst_10 : FVec F S_ .f32 := constant S_ .f32 0x7F800000#32
  let main_v30 : FVec F S2x512 .f32 := broadcastInDim S2x512 ![] bcast_S_S2x512 main_cst_10
  let main_v31 : IVec S2x512 1 := cmpf .olt main_v29 main_v30
  let main_c_11 : IVec S_ 1 := constantI S_ 1 1#1
  let main_v32 : IVec S_ 1 := (fun x v => Host.reduce IntOp.andi x v reducesTo_S2x512_S_d0_1 h_S_) main_v31 main_c_11
  let main_v33 : IVec S_ 1 := andi main_v28 main_v32
  fn_part2 (F := F) main_arg4 main_arg5 main_arg7 main_v33

def fn {F : FTy → Type} [FloatOps F] (main_arg0 : FVec F S65536x256 .f32) (main_arg1 : FVec F S65536x64 .f32) (main_arg2 : FVec F S256x512 .f32) (main_arg3 : FVec F S64x512 .f32) (main_arg4 : FVec F S512x512 .f32) (main_arg5 : FVec F S512x2 .f32) (main_arg6 : FVec F S2x512 .f32) (main_arg7 : FVec F S2x1 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x64 .f32 := Host.absf main_arg1
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_arg4 main_arg5 main_arg6 main_arg7 main_v13 main_v16
-- ==== Kernel.lean ====
abbrev S65536x256 : Shape := ⟨2, ![65536, 256]⟩
abbrev S65536x64 : Shape := ⟨2, ![65536, 64]⟩
abbrev S256x512 : Shape := ⟨2, ![256, 512]⟩
abbrev S64x512 : Shape := ⟨2, ![64, 512]⟩
abbrev S512x512 : Shape := ⟨2, ![512, 512]⟩
abbrev S512x2 : Shape := ⟨2, ![512, 2]⟩
abbrev S2x512 : Shape := ⟨2, ![2, 512]⟩
abbrev S2x1 : Shape := ⟨2, ![2, 1]⟩
abbrev S64x65536 : Shape := ⟨2, ![64, 65536]⟩
abbrev S2x65536 : Shape := ⟨2, ![2, 65536]⟩
abbrev S1x65536 : Shape := ⟨2, ![1, 65536]⟩
abbrev S65536 : Shape := ⟨1, ![65536]⟩
abbrev S65536x1 : Shape := ⟨2, ![65536, 1]⟩
abbrev S4096x256 : Shape := ⟨2, ![4096, 256]⟩
abbrev S64x4096 : Shape := ⟨2, ![64, 4096]⟩
abbrev S2x4096 : Shape := ⟨2, ![2, 4096]⟩
abbrev S1024x256 : Shape := ⟨2, ![1024, 256]⟩
abbrev S1024x512 : Shape := ⟨2, ![1024, 512]⟩
abbrev S64x1024 : Shape := ⟨2, ![64, 1024]⟩
abbrev S1x512 : Shape := ⟨2, ![1, 512]⟩
abbrev S256x256 : Shape := ⟨2, ![256, 256]⟩
abbrev S1x256 : Shape := ⟨2, ![1, 256]⟩
abbrev S256x1 : Shape := ⟨2, ![256, 1]⟩
abbrev S1x1024 : Shape := ⟨2, ![1, 1024]⟩
abbrev S2x1024 : Shape := ⟨2, ![2, 1024]⟩

abbrev nBuf : Space → Nat
  | .hbm => 16
  | .vmem => 12
  | .smem => 0
  | _ => 0

abbrev bufTy : (tb : Table) → Fin (tcTables nBuf tb) → BufTy
  | .hbm, ⟨0, _⟩ => ⟨S65536x256, .f32⟩
  | .hbm, ⟨1, _⟩ => ⟨S65536x64, .f32⟩
  | .hbm, ⟨2, _⟩ => ⟨S256x512, .f32⟩
  | .hbm, ⟨3, _⟩ => ⟨S64x512, .f32⟩
  | .hbm, ⟨4, _⟩ => ⟨S512x512, .f32⟩
  | .hbm, ⟨5, _⟩ => ⟨S512x2, .f32⟩
  | .hbm, ⟨6, _⟩ => ⟨S2x512, .f32⟩
  | .hbm, ⟨7, _⟩ => ⟨S2x1, .f32⟩
  | .hbm, ⟨8, _⟩ => ⟨S64x65536, .f32⟩
  | .hbm, ⟨9, _⟩ => ⟨S2x65536, .f32⟩
  | .hbm, ⟨10, _⟩ => ⟨S1x65536, .f32⟩
  | .hbm, ⟨11, _⟩ => ⟨S65536, .f32⟩
  | .hbm, ⟨12, _⟩ => ⟨S65536x1, .f32⟩
  | .hbm, ⟨13, _⟩ => ⟨S1x65536, .f32⟩
  | .hbm, ⟨14, _⟩ => ⟨S65536, .f32⟩
  | .hbm, ⟨15, _⟩ => ⟨S65536x1, .f32⟩
  | .local _ .vmem, ⟨0, _⟩ => ⟨S4096x256, .f32⟩
  | .local _ .vmem, ⟨1, _⟩ => ⟨S4096x256, .f32⟩
  | .local _ .vmem, ⟨2, _⟩ => ⟨S64x4096, .f32⟩
  | .local _ .vmem, ⟨3, _⟩ => ⟨S64x4096, .f32⟩
  | .local _ .vmem, ⟨4, _⟩ => ⟨S256x512, .f32⟩
  | .local _ .vmem, ⟨5, _⟩ => ⟨S64x512, .f32⟩
  | .local _ .vmem, ⟨6, _⟩ => ⟨S512x512, .f32⟩
  | .local _ .vmem, ⟨7, _⟩ => ⟨S512x2, .f32⟩
  | .local _ .vmem, ⟨8, _⟩ => ⟨S2x512, .f32⟩
  | .local _ .vmem, ⟨9, _⟩ => ⟨S2x1, .f32⟩
  | .local _ .vmem, ⟨10, _⟩ => ⟨S2x4096, .f32⟩
  | .local _ .vmem, ⟨11, _⟩ => ⟨S2x4096, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_v0_0 : Ref sig .tc := ⟨.hbm, 12, rfl⟩
abbrev main_call0_v5 : Ref sig .tc := ⟨.hbm, 13, rfl⟩
abbrev main_call0_v6 : Ref sig .tc := ⟨.hbm, 14, rfl⟩
abbrev main_v0_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S65536x64_S64x65536_1_0 : S65536x64.Transposes [1, 0] S64x65536
  slices_S2x65536_S1x65536_0_0 : S2x65536.Slices ![0, 0] S1x65536
  shapeCasts_S1x65536_S65536 : S1x65536.ShapeCasts S65536
  shapeCasts_S65536_S65536x1 : S65536.ShapeCasts S65536x1
  slices_S2x65536_S1x65536_1_0 : S2x65536.Slices ![1, 0] S1x65536
  inb_S2x512_S2x512_0_0 : ∀ a, (![0, 0] : Fin 2 → Nat) a + S2x512.size a ≤ S2x512.size a
  h_S2x512 : 0 < S2x512.numel
  inb_S2x1_S2x1_0_0 : ∀ a, (![0, 0] : Fin 2 → Nat) a + S2x1.size a ≤ S2x1.size a
  h_S2x1 : 0 < S2x1.numel
  inb_S4096x256_S1024x256_0_0 : ∀ a, (![0, 0] : Fin 2 → Nat) a + S1024x256.size a ≤ S4096x256.size a
  h_S1024x256 : 0 < S1024x256.numel
  inb_S256x512_S256x512_0_0 : ∀ a, (![0, 0] : Fin 2 → Nat) a + S256x512.size a ≤ S256x512.size a
  h_S256x512 : 0 < S256x512.numel
  inb_S64x4096_S64x1024_0_0 : ∀ a, (![0, 0] : Fin 2 → Nat) a + S64x1024.size a ≤ S64x4096.size a
  h_S64x1024 : 0 < S64x1024.numel
  shapeCasts_S64x1024_S64x1024 : S64x1024.ShapeCasts S64x1024
  inb_S64x512_S64x512_0_0 : ∀ a, (![0, 0] : Fin 2 → Nat) a + S64x512.size a ≤ S64x512.size a
  h_S64x512 : 0 < S64x512.numel
  slices_S2x512_o0_0_S1x512 : S2x512.Slices ![0, 0] S1x512
  broadcasts_S1x512_S1024x512 : S1x512.Broadcasts S1024x512
  slices_S1024x512_o0_0_S1024x256 : S1024x512.Slices ![0, 0] S1024x256
  inb_S512x512_S256x256_0_0 : ∀ a, (![0, 0] : Fin 2 → Nat) a + S256x256.size a ≤ S512x512.size a
  h_S256x256 : 0 < S256x256.numel
  slices_S2x512_o1_0_S1x256 : S2x512.Slices ![1, 0] S1x256
  broadcasts_S1x256_S1024x256 : S1x256.Broadcasts S1024x256
  slices_S1024x512_o0_256_S1024x256 : S1024x512.Slices ![0, 256] S1024x256
  inb_S512x512_S256x256_256_256 : ∀ a, (![256, 256] : Fin 2 → Nat) a + S256x256.size a ≤ S512x512.size a
  slices_S2x512_o1_256_S1x256 : S2x512.Slices ![1, 256] S1x256
  inb_S512x2_S256x1_0_0 : ∀ a, (![0, 0] : Fin 2 → Nat) a + S256x1.size a ≤ S512x2.size a
  h_S256x1 : 0 < S256x1.numel
  inb_S512x2_S256x1_256_1 : ∀ a, (![256, 1] : Fin 2 → Nat) a + S256x1.size a ≤ S512x2.size a
  concatenates_S1x1024_S1x1024_S2x1024_d0 : Shape.Concatenates [S1x1024, S1x1024] S2x1024 0
  broadcasts_S2x1_S2x1024 : S2x1.Broadcasts S2x1024
  inb_S2x4096_S2x1024_0_0 : ∀ a, (![0, 0] : Fin 2 → Nat) a + S2x1024.size a ≤ S2x4096.size a
  h_S2x1024 : 0 < S2x1024.numel
  inb_S4096x256_S1024x256_1024_0 : ∀ a, (![1024, 0] : Fin 2 → Nat) a + S1024x256.size a ≤ S4096x256.size a
  inb_S64x4096_S64x1024_0_1024 : ∀ a, (![0, 1024] : Fin 2 → Nat) a + S64x1024.size a ≤ S64x4096.size a
  inb_S2x4096_S2x1024_0_1024 : ∀ a, (![0, 1024] : Fin 2 → Nat) a + S2x1024.size a ≤ S2x4096.size a
  inb_S4096x256_S1024x256_2048_0 : ∀ a, (![2048, 0] : Fin 2 → Nat) a + S1024x256.size a ≤ S4096x256.size a
  inb_S64x4096_S64x1024_0_2048 : ∀ a, (![0, 2048] : Fin 2 → Nat) a + S64x1024.size a ≤ S64x4096.size a
  inb_S2x4096_S2x1024_0_2048 : ∀ a, (![0, 2048] : Fin 2 → Nat) a + S2x1024.size a ≤ S2x4096.size a
  inb_S4096x256_S1024x256_3072_0 : ∀ a, (![3072, 0] : Fin 2 → Nat) a + S1024x256.size a ≤ S4096x256.size a
  inb_S64x4096_S64x1024_0_3072 : ∀ a, (![0, 3072] : Fin 2 → Nat) a + S64x1024.size a ≤ S64x4096.size a
  inb_S2x4096_S2x1024_0_3072 : ∀ a, (![0, 3072] : Fin 2 → Nat) a + S2x1024.size a ≤ S2x4096.size a
  dot_S1024x256_S256x512_S1024x512_1_0_0_1_n_n_wf : DotDims.WF S1024x256 S256x512 S1024x512 [1] [0] [0] [1] [] []
  dot_S64x1024_S64x512_S1024x512_0_0_1_1_n_n_wf : DotDims.WF S64x1024 S64x512 S1024x512 [0] [0] [1] [1] [] []
  dot_S1024x256_S256x256_S1024x256_1_0_0_1_n_n_wf : DotDims.WF S1024x256 S256x256 S1024x256 [1] [0] [0] [1] [] []
  dot_S256x1_S1024x256_S1x1024_0_1_1_0_n_n_wf : DotDims.WF S256x1 S1024x256 S1x1024 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x65536.size a
  hwx0_1 : ∀ i : grid0.Coords, EltTy.bits .f32 = 32 ∨ (Rect.block (s := S64x65536) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2.size a ≤ S512x2.size a
  hwx0_5 : ∀ i : grid0.Coords, EltTy.bits .f32 = 32 ∨ (Rect.block (s := S512x2) S512x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x512.size a ≤ S2x512.size a
  hwx0_6 : ∀ i : grid0.Coords, EltTy.bits .f32 = 32 ∨ (Rect.block (s := S2x512) S2x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x1.size a ≤ S2x1.size a
  hwx0_7 : ∀ i : grid0.Coords, EltTy.bits .f32 = 32 ∨ (Rect.block (s := S2x1) S2x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x4096.size a ≤ S2x65536.size a
  hwx0_8 : ∀ i : grid0.Coords, EltTy.bits .f32 = 32 ∨ (Rect.block (s := S2x65536) S2x4096.size (cc0_transform_8 i) (hinb0_8 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S64x1024_S64x512_S1024x512_0_0_1_1_n_n : DotDims S64x1024 S64x512 S1024x512 where
  lhsContracting := [0]
  rhsContracting := [0]
  lhsNonContracting := [1]
  rhsNonContracting := [1]
  lhsBatch := []
  rhsBatch := []
  wf := dot_S64x1024_S64x512_S1024x512_0_0_1_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S256x1_S1024x256_S1x1024_0_1_1_0_n_n : DotDims S256x1 S1024x256 S1x1024 where
  lhsContracting := [0]
  rhsContracting := [1]
  lhsNonContracting := [1]
  rhsNonContracting := [0]
  lhsBatch := []
  rhsBatch := []
  wf := dot_S256x1_S1024x256_S1x1024_0_1_1_0_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v1) S2x4096.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536x64 : Shape := ⟨2, ![65536, 64]⟩
abbrev S256x512 : Shape := ⟨2, ![256, 512]⟩
abbrev S64x512 : Shape := ⟨2, ![64, 512]⟩
abbrev S512x512 : Shape := ⟨2, ![512, 512]⟩
abbrev S512x2 : Shape := ⟨2, ![512, 2]⟩
abbrev S2x512 : Shape := ⟨2, ![2, 512]⟩
abbrev S2x1 : Shape := ⟨2, ![2, 1]⟩
abbrev S2x65536 : Shape := ⟨2, ![2, 65536]⟩
abbrev S1x65536 : Shape := ⟨2, ![1, 65536]⟩
abbrev S65536 : Shape := ⟨1, ![65536]⟩
abbrev S65536x1 : Shape := ⟨2, ![65536, 1]⟩
abbrev S1024x256 : Shape := ⟨2, ![1024, 256]⟩
abbrev S1024x64 : Shape := ⟨2, ![1024, 64]⟩
abbrev S2x1024 : Shape := ⟨2, ![2, 1024]⟩
abbrev S1024x512 : Shape := ⟨2, ![1024, 512]⟩
abbrev S1x512 : Shape := ⟨2, ![1, 512]⟩

abbrev nBuf : Space → Nat
  | .hbm => 15
  | .vmem => 12
  | .smem => 0
  | _ => 0

abbrev bufTy : (tb : Table) → Fin (tcTables nBuf tb) → BufTy
  | .hbm, ⟨0, _⟩ => ⟨S65536x256, .f32⟩
  | .hbm, ⟨1, _⟩ => ⟨S65536x64, .f32⟩
  | .hbm, ⟨2, _⟩ => ⟨S256x512, .f32⟩
  | .hbm, ⟨3, _⟩ => ⟨S64x512, .f32⟩
  | .hbm, ⟨4, _⟩ => ⟨S512x512, .f32⟩
  | .hbm, ⟨5, _⟩ => ⟨S512x2, .f32⟩
  | .hbm, ⟨6, _⟩ => ⟨S2x512, .f32⟩
  | .hbm, ⟨7, _⟩ => ⟨S2x1, .f32⟩
  | .hbm, ⟨8, _⟩ => ⟨S2x65536, .f32⟩
  | .hbm, ⟨9, _⟩ => ⟨S1x65536, .f32⟩
  | .hbm, ⟨10, _⟩ => ⟨S65536, .f32⟩
  | .hbm, ⟨11, _⟩ => ⟨S65536x1, .f32⟩
  | .hbm, ⟨12, _⟩ => ⟨S1x65536, .f32⟩
  | .hbm, ⟨13, _⟩ => ⟨S65536, .f32⟩
  | .hbm, ⟨14, _⟩ => ⟨S65536x1, .f32⟩
  | .local _ .vmem, ⟨0, _⟩ => ⟨S1024x256, .f32⟩
  | .local _ .vmem, ⟨1, _⟩ => ⟨S1024x256, .f32⟩
  | .local _ .vmem, ⟨2, _⟩ => ⟨S1024x64, .f32⟩
  | .local _ .vmem, ⟨3, _⟩ => ⟨S1024x64, .f32⟩
  | .local _ .vmem, ⟨4, _⟩ => ⟨S256x512, .f32⟩
  | .local _ .vmem, ⟨5, _⟩ => ⟨S64x512, .f32⟩
  | .local _ .vmem, ⟨6, _⟩ => ⟨S512x512, .f32⟩
  | .local _ .vmem, ⟨7, _⟩ => ⟨S512x2, .f32⟩
  | .local _ .vmem, ⟨8, _⟩ => ⟨S2x512, .f32⟩
  | .local _ .vmem, ⟨9, _⟩ => ⟨S2x1, .f32⟩
  | .local _ .vmem, ⟨10, _⟩ => ⟨S2x1024, .f32⟩
  | .local _ .vmem, ⟨11, _⟩ => ⟨S2x1024, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_v0_0 : Ref sig .tc := ⟨.hbm, 11, rfl⟩
abbrev main_call0_v4 : Ref sig .tc := ⟨.hbm, 12, rfl⟩
abbrev main_call0_v5 : Ref sig .tc := ⟨.hbm, 13, rfl⟩
abbrev main_v0_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x65536_S1x65536_0_0 : S2x65536.Slices ![0, 0] S1x65536
  shapeCasts_S1x65536_S65536 : S1x65536.ShapeCasts S65536
  shapeCasts_S65536_S65536x1 : S65536.ShapeCasts S65536x1
  slices_S2x65536_S1x65536_1_0 : S2x65536.Slices ![1, 0] S1x65536
  inb_S2x512_S2x512_0_0 : ∀ a, (![0, 0] : Fin 2 → Nat) a + S2x512.size a ≤ S2x512.size a
  h_S2x512 : 0 < S2x512.numel
  inb_S1024x256_S1024x256_0_0 : ∀ a, (![0, 0] : Fin 2 → Nat) a + S1024x256.size a ≤ S1024x256.size a
  h_S1024x256 : 0 < S1024x256.numel
  inb_S256x512_S256x512_0_0 : ∀ a, (![0, 0] : Fin 2 → Nat) a + S256x512.size a ≤ S256x512.size a
  h_S256x512 : 0 < S256x512.numel
  inb_S1024x64_S1024x64_0_0 : ∀ a, (![0, 0] : Fin 2 → Nat) a + S1024x64.size a ≤ S1024x64.size a
  h_S1024x64 : 0 < S1024x64.numel
  inb_S64x512_S64x512_0_0 : ∀ a, (![0, 0] : Fin 2 → Nat) a + S64x512.size a ≤ S64x512.size a
  h_S64x512 : 0 < S64x512.numel
  slices_S2x512_o0_0_S1x512 : S2x512.Slices ![0, 0] S1x512
  broadcasts_S1x512_S1024x512 : S1x512.Broadcasts S1024x512
  inb_S512x512_S512x512_0_0 : ∀ a, (![0, 0] : Fin 2 → Nat) a + S512x512.size a ≤ S512x512.size a
  h_S512x512 : 0 < S512x512.numel
  slices_S2x512_o1_0_S1x512 : S2x512.Slices ![1, 0] S1x512
  inb_S512x2_S512x2_0_0 : ∀ a, (![0, 0] : Fin 2 → Nat) a + S512x2.size a ≤ S512x2.size a
  h_S512x2 : 0 < S512x2.numel
  inb_S2x1_S2x1_0_0 : ∀ a, (![0, 0] : Fin 2 → Nat) a + S2x1.size a ≤ S2x1.size a
  h_S2x1 : 0 < S2x1.numel
  broadcasts_S2x1_S2x1024 : S2x1.Broadcasts S2x1024
  inb_S2x1024_S2x1024_0_0 : ∀ a, (![0, 0] : Fin 2 → Nat) a + S2x1024.size a ≤ S2x1024.size a
  h_S2x1024 : 0 < S2x1024.numel
  dot_S1024x256_S256x512_S1024x512_1_0_0_1_n_n_wf : DotDims.WF S1024x256 S256x512 S1024x512 [1] [0] [0] [1] [] []
  dot_S1024x64_S64x512_S1024x512_1_0_0_1_n_n_wf : DotDims.WF S1024x64 S64x512 S1024x512 [1] [0] [0] [1] [] []
  dot_S1024x512_S512x512_S1024x512_1_0_0_1_n_n_wf : DotDims.WF S1024x512 S512x512 S1024x512 [1] [0] [0] [1] [] []
  dot_S512x2_S1024x512_S2x1024_0_1_1_0_n_n_wf : DotDims.WF S512x2 S1024x512 S2x1024 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S65536x64.size a
  hwx0_1 : ∀ i : grid0.Coords, EltTy.bits .f32 = 32 ∨ (Rect.block (s := S65536x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2.size a ≤ S512x2.size a
  hwx0_5 : ∀ i : grid0.Coords, EltTy.bits .f32 = 32 ∨ (Rect.block (s := S512x2) S512x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x512.size a ≤ S2x512.size a
  hwx0_6 : ∀ i : grid0.Coords, EltTy.bits .f32 = 32 ∨ (Rect.block (s := S2x512) S2x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x1.size a ≤ S2x1.size a
  hwx0_7 : ∀ i : grid0.Coords, EltTy.bits .f32 = 32 ∨ (Rect.block (s := S2x1) S2x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x1024.size a ≤ S2x65536.size a
  hwx0_8 : ∀ i : grid0.Coords, EltTy.bits .f32 = 32 ∨ (Rect.block (s := S2x65536) S2x1024.size (cc0_transform_8 i) (hinb0_8 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S512x2_S1024x512_S2x1024_0_1_1_0_n_n : DotDims S512x2 S1024x512 S2x1024 where
  lhsContracting := [0]
  rhsContracting := [1]
  lhsNonContracting := [1]
  rhsNonContracting := [0]
  lhsBatch := []
  rhsBatch := []
  wf := dot_S512x2_S1024x512_S2x1024_0_1_1_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v0) S2x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== Proof.LibDotOneAxis.lean ====
/-
  A product of two arrays contracted along ONE axis, read at an entry, whatever the dimension numbers.

  The matrix unit started from the zero splat has at the result index j the entry Σ_k lhs[L k] · rhs[R k], where L k and
  R k are the two operand indices that the dimension numbers give at j and at the contraction coordinate k. Over the
  extended reals there is no rounding and no order of summation left. The dimension numbers enter only through the two
  index maps: a caller names them (coordinate by coordinate, for its own record) and gets a sum over `Fin K`.
  This covers x @ W, xᵀ @ W (the left operand stored transposed) and W[:, r] · g[i, :] (the left operand's leading
  axis against the right operand's trailing one) alike.
-/
import Idealize.ShloMosaic.PureOps.Ideal.Laws
import Idealize.ShloMosaic.Lib.ValueIdx

noncomputable section

open scoped BigOperators

namespace Idealize.ShloMosaic.DotOneAxis

open Idealize.ShloMosaic Idealize.ShloMosaic.ValueIdx

variable {sl sr so : Shape} {φ₁ φ₂ : FTy}

/-- THE MATRIX UNIT from the zero splat, one contracted axis of extent K: the entry at j is Σ_k lhs[L k] · rhs[R k],
    L and R being the operand indices at (j, k). -/
theorem matmul_zero_apply (D : DotDims sl sr so) (K : ℕ)
    (hr : D.contr.rank = 1) (hs : D.contr.size ⟨0, by omega⟩ = K)
    (prec : Option ContractPrecision) (lhs : FVec Ideal sl φ₁) (rhs : FVec Ideal sr φ₂) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant (F := Ideal) so .f32 0x00000000#32) j
      = ∑ k : Fin K, lhs (L k) * rhs (R k) := by
  rw [Ideal.matmul_constant_zero_apply, ← Equiv.sum_comp (contrEquiv1 D K hr hs).symm]
  refine Finset.sum_congr rfl fun k _ => ?_
  rw [hL k, hR k]

end Idealize.ShloMosaic.DotOneAxis

end
-- ==== Proof.LibSumBlocks.lean ====
/-
  A sum over an index range laid out as consecutive blocks is the sum of the blocks' sums, in any commutative additive
  monoid: over a + b + c indices, the first a, the next b (shifted by a), the last c (shifted by a + b); and the same for
  two blocks. This is what joins one product against a matrix of stacked row-blocks to the sum of the products against each block.
-/
import Mathlib.Algebra.BigOperators.Fin

open scoped BigOperators

namespace Idealize.ShloMosaic.SumBlocks

variable {β : Type*} [AddCommMonoid β]

/-- Two consecutive blocks. -/
theorem sum_two (a b : ℕ) (g : Fin (a + b) → β) :
    ∑ k, g k = (∑ j : Fin a, g ⟨j.val, by omega⟩) + ∑ j : Fin b, g ⟨a + j.val, by omega⟩ := by
  rw [Fin.sum_univ_add]; rfl

/-- Three consecutive blocks. -/
theorem sum_three (a b c : ℕ) (g : Fin (a + b + c) → β) :
    ∑ k, g k = ((∑ j : Fin a, g ⟨j.val, by omega⟩) + ∑ j : Fin b, g ⟨a + j.val, by omega⟩)
      + ∑ j : Fin c, g ⟨a + b + j.val, by omega⟩ := by
  rw [Fin.sum_univ_add, Fin.sum_univ_add]; rfl

end Idealize.ShloMosaic.SumBlocks
-- ==== Proof.TwinSpec.lean ====
/-
  Two critic networks packed side by side, as plain formulas over the extended reals.

  The packed hidden axis has 512 columns: columns 0..255 belong to the first network, columns 256..511 to the second.
  The first layer is shared: h[j] = max(Σ_k s[k]·W0s[k,j] + Σ_k a[k]·W0a[k,j] + b0[j], 0).
  Evaluated as ONE packed network, output r is  Σ_{k<512} wl[k,r] · max(Σ_{k'<512} h[k']·Hd[k',k] + b1[k], 0) + bl[r].
  Evaluated network by network, output r uses only its own 256 columns (offset o = 0 or 256):
     Σ_{k<256} wl[o+k,r] · max(Σ_{k'<256} h[o+k']·Hd[o+k',o+k] + b1[o+k], 0) + bl[r].
  When the hidden weight Hd and the last weight wl are block diagonal (the off-diagonal blocks exactly zero) the two
  agree: a sum over 512 columns is the sum over the two halves, and in the foreign half every term has a zero factor;
  on the extended reals x·0 = 0·x = 0 for every x, infinite ones included, so no finiteness is needed.
-/
import Idealize.ShloMosaic.PureOps.Ideal
import proofs.«121478_g2000502508351383_pallasbulk_1291_12_alg».proof.Proof.LibSumBlocks

noncomputable section

open scoped BigOperators

namespace Cert.TwinCritic

/-- Column o + k of the packed hidden axis. -/
def col (o : ℕ) (ho : o + 256 ≤ 512) (k : Fin 256) : Fin 512 := ⟨o + k.val, by omega⟩

theorem col_val (o : ℕ) (ho : o + 256 ≤ 512) (k : Fin 256) : (col o ho k).val = o + k.val := rfl

/-- The shared first layer at column j, from one row of the state and one row of the action. -/
def layer0 (s : Fin 256 → EReal) (a : Fin 64 → EReal) (w0s : Fin 256 → Fin 512 → EReal) (w0a : Fin 64 → Fin 512 → EReal)
    (b0 : Fin 512 → EReal) (j : Fin 512) : EReal :=
  max (((∑ k, s k * w0s k j) + ∑ k, a k * w0a k j) + b0 j) 0

variable (h : Fin 512 → EReal) (hd : Fin 512 → Fin 512 → EReal) (b1 : Fin 512 → EReal) (wl : Fin 512 → Fin 2 → EReal)
  (bl : Fin 2 → EReal)

/-- One network on its own 256 columns, starting at column o. -/
def qNet (o : ℕ) (ho : o + 256 ≤ 512) (r : Fin 2) : EReal :=
  (∑ k : Fin 256, wl (col o ho k) r
      * max ((∑ k' : Fin 256, h (col o ho k') * hd (col o ho k') (col o ho k)) + b1 (col o ho k)) 0) + bl r

/-- The packed network, all 512 columns at once. -/
def qPacked (r : Fin 2) : EReal :=
  (∑ k : Fin 512, wl k r * max ((∑ k' : Fin 512, h k' * hd k' k) + b1 k) 0) + bl r

/-- The two packed weights are block diagonal: rows of one half against columns of the other are exactly zero. -/
structure BlockDiag : Prop where
  hd_upper : ∀ k' k : Fin 256, hd (col 0 (by omega) k') (col 256 (by omega) k) = 0
  hd_lower : ∀ k' k : Fin 256, hd (col 256 (by omega) k') (col 0 (by omega) k) = 0
  wl_upper : ∀ k : Fin 256, wl (col 0 (by omega) k) 1 = 0
  wl_lower : ∀ k : Fin 256, wl (col 256 (by omega) k) 0 = 0

/-- A sum over the 512 packed columns is the sum over the first half plus the sum over the second. -/
theorem sum_halves {β : Type*} [AddCommMonoid β] (f : Fin 512 → β) :
    ∑ k, f k = (∑ k : Fin 256, f (col 0 (by omega) k)) + ∑ k : Fin 256, f (col 256 (by omega) k) := by
  refine (Idealize.ShloMosaic.SumBlocks.sum_two 256 256 f).trans ?_
  congr 1

variable {hd wl}

/-- The first output of the packed network is the first network alone. -/
theorem qPacked_zero (H : BlockDiag hd wl) : qPacked h hd b1 wl bl 0 = qNet h hd b1 wl bl 0 (by omega) 0 := by
  unfold qPacked qNet
  rw [sum_halves (fun k => wl k 0 * max ((∑ k' : Fin 512, h k' * hd k' k) + b1 k) 0)]
  have z : (∑ k : Fin 256, wl (col 256 (by omega) k) 0
      * max ((∑ k' : Fin 512, h k' * hd k' (col 256 (by omega) k)) + b1 (col 256 (by omega) k)) 0) = 0 :=
    Finset.sum_eq_zero fun k _ => by rw [H.wl_lower k, zero_mul]
  rw [z, add_zero]
  refine congrArg (· + bl 0) (Finset.sum_congr rfl fun k _ => ?_)
  refine congrArg (fun x => wl (col 0 (by omega) k) 0 * max (x + b1 (col 0 (by omega) k)) 0) ?_
  rw [sum_halves (fun k' => h k' * hd k' (col 0 (by omega) k))]
  rw [Finset.sum_eq_zero (s := Finset.univ) (f := fun k' : Fin 256 => h (col 256 (by omega) k') * hd (col 256 (by omega) k') (col 0 (by omega) k))
    (fun k' _ => by rw [H.hd_lower k' k, mul_zero]), add_zero]

/-- The second output of the packed network is the second network alone. -/
theorem qPacked_one (H : BlockDiag hd wl) : qPacked h hd b1 wl bl 1 = qNet h hd b1 wl bl 256 (by omega) 1 := by
  unfold qPacked qNet
  rw [sum_halves (fun k => wl k 1 * max ((∑ k' : Fin 512, h k' * hd k' k) + b1 k) 0)]
  have z : (∑ k : Fin 256, wl (col 0 (by omega) k) 1
      * max ((∑ k' : Fin 512, h k' * hd k' (col 0 (by omega) k)) + b1 (col 0 (by omega) k)) 0) = 0 :=
    Finset.sum_eq_zero fun k _ => by rw [H.wl_upper k, zero_mul]
  rw [z, zero_add]
  refine congrArg (· + bl 1) (Finset.sum_congr rfl fun k _ => ?_)
  refine congrArg (fun x => wl (col 256 (by omega) k) 1 * max (x + b1 (col 256 (by omega) k)) 0) ?_
  rw [sum_halves (fun k' => h k' * hd k' (col 256 (by omega) k))]
  rw [Finset.sum_eq_zero (s := Finset.univ) (f := fun k' : Fin 256 => h (col 0 (by omega) k') * hd (col 0 (by omega) k') (col 256 (by omega) k))
    (fun k' _ => by rw [H.hd_upper k' k, mul_zero]), zero_add]

variable (hd wl)

/-- The two networks, each on its own half: output 0 on columns 0..255, output 1 on columns 256..511. -/
def qTwin (r : Fin 2) : EReal :=
  if r = 0 then qNet h hd b1 wl bl 0 (by omega) 0 else qNet h hd b1 wl bl 256 (by omega) 1

theorem qTwin_zero : qTwin h hd b1 wl bl 0 = qNet h hd b1 wl bl 0 (by omega) 0 := if_pos rfl

theorem qTwin_one : qTwin h hd b1 wl bl 1 = qNet h hd b1 wl bl 256 (by omega) 1 := if_neg (by decide)

/-- With block-diagonal weights the packed network computes the two networks. -/
theorem qPacked_eq_qTwin (H : BlockDiag hd wl) (r : Fin 2) : qPacked h hd b1 wl bl r = qTwin h hd b1 wl bl r := by
  match r with
  | ⟨0, _⟩ => exact (qPacked_zero h b1 bl H).trans (qTwin_zero h hd b1 wl bl).symm
  | ⟨1, _⟩ => exact (qPacked_one h b1 bl H).trans (qTwin_one h hd b1 wl bl).symm

/-! ## The whole batch

  The arrays as functions of their coordinates: state S[y,k], action A[y,k], first-layer weights W0S[k,j], W0A[k,j],
  hidden weight HD[k',k], last weight WL[k,r], the two bias rows B[0,·], B[1,·], the last bias BL[r]. -/

section Batch
variable (S : Fin 65536 → Fin 256 → EReal) (A : Fin 65536 → Fin 64 → EReal) (W0S : Fin 256 → Fin 512 → EReal)
  (W0A : Fin 64 → Fin 512 → EReal) (HD : Fin 512 → Fin 512 → EReal) (WL : Fin 512 → Fin 2 → EReal)
  (B : Fin 2 → Fin 512 → EReal) (BL : Fin 2 → EReal)

/-- Output r of batch row y, the two networks evaluated each on its own half. -/
def critic (r : Fin 2) (y : Fin 65536) : EReal :=
  qTwin (layer0 (S y) (A y) W0S W0A (B 0)) HD (B 1) WL BL r

/-- Output r of batch row y, the packed network evaluated whole. -/
def criticPacked (r : Fin 2) (y : Fin 65536) : EReal :=
  qPacked (layer0 (S y) (A y) W0S W0A (B 0)) HD (B 1) WL BL r

theorem criticPacked_eq_critic (H : BlockDiag HD WL) (r : Fin 2) (y : Fin 65536) :
    criticPacked S A W0S W0A HD WL B BL r y = critic S A W0S W0A HD WL B BL r y :=
  qPacked_eq_qTwin _ _ _ _ _ H r

end Batch

end Cert.TwinCritic

end
-- ==== Proof.KernelChunk.lean ====
/-
  One 1024-row chunk of the kernel's block, read at an entry.

  The body handles its 4096-row block as four chunks of 1024 rows; every chunk applies the same arithmetic to its own rows
  of the state and its own columns of the transposed action, and stores a [2, 1024] piece: row 0 the first network's
  output, row 1 the second's. The four stored values unfold to ONE function `chunk` of the loaded pieces. At row r
  and column q that function is the network r evaluated on its own 256 hidden columns (`TwinCritic.qNet`), from the first
  layer h[j] = max(Σ_k s[q,k]·W0s[k,j] + Σ_k aT[k,q]·W0a[k,j] + b[0,j], 0): each matrix product started from the zero
  splat is a plain sum over the contracted coordinate, a slice reads its operand shifted by the offsets, a broadcast row reads
  the row, and the two stacked rows of the concatenation are its two operands.
-/
import proofs.«121478_g2000502508351383_pallasbulk_1291_12_alg».proof.Proof.Gen.KernelIdeal.Skeleton
import proofs.«121478_g2000502508351383_pallasbulk_1291_12_alg».proof.Proof.LibDotOneAxis
import proofs.«121478_g2000502508351383_pallasbulk_1291_12_alg».proof.Proof.TwinSpec
import Idealize.ShloMosaic.Lib.Pipeline.Value
import Idealize.ShloMosaic.Lib.ValueIdx

noncomputable section

open scoped BigOperators
open Idealize.ShloMosaic Idealize.ShloMosaic.ValueIdx

namespace Cert.KernelIdeal.Hand

open Cert.KernelIdeal Cert.KernelIdeal.Gen Cert.TwinCritic

/-! ## The four stored values are one function of the loaded pieces -/

section AnyInstance
variable {F : FTy → Type} [FloatOps F]

/-- What a chunk stores, from the two bias rows `b`, the last bias `bl`, the chunk's state rows `s` and transposed action
    columns `aT`, the first-layer weights, the two diagonal blocks of the hidden weight and the two diagonal blocks of the
    last weight. -/
def chunk (b : Vec F S2x512 .f32) (bl : Vec F S2x1 .f32) (s : Vec F S1024x256 .f32) (w0s : Vec F S256x512 .f32)
    (aT : Vec F S64x1024 .f32) (w0a : Vec F S64x512 .f32) (hd0 hd1 : Vec F S256x256 .f32) (wl0 wl1 : Vec F S256x1 .f32) :
    FVec F S2x1024 .f32 :=
  k0_pay5 bl (k0_pay3 b s w0s aT w0a hd1) (k0_pay4 b s w0s aT w0a hd0 wl0) wl1

theorem stored1_eq (b : Vec F S2x512 .f32) (bl : Vec F S2x1 .f32) (s : Vec F S1024x256 .f32) (w0s : Vec F S256x512 .f32)
    (aT : Vec F S64x1024 .f32) (w0a : Vec F S64x512 .f32) (hd0 hd1 : Vec F S256x256 .f32) (wl0 wl1 : Vec F S256x1 .f32) :
    k0_pay9 bl (k0_pay7 b s w0s aT w0a hd0) (k0_pay8 b s w0s aT w0a hd1) wl0 wl1
      = chunk b bl s w0s aT w0a hd0 hd1 wl0 wl1 := rfl

theorem stored2_eq (b : Vec F S2x512 .f32) (bl : Vec F S2x1 .f32) (s : Vec F S1024x256 .f32) (w0s : Vec F S256x512 .f32)
    (aT : Vec F S64x1024 .f32) (w0a : Vec F S64x512 .f32) (hd0 hd1 : Vec F S256x256 .f32) (wl0 wl1 : Vec F S256x1 .f32) :
    k0_pay14 bl (k0_pay11 b s w0s aT w0a hd0) (k0_pay12 b s w0s aT w0a hd1) (k0_pay13 b) wl0 wl1
      = chunk b bl s w0s aT w0a hd0 hd1 wl0 wl1 := rfl

theorem stored3_eq (b : Vec F S2x512 .f32) (bl : Vec F S2x1 .f32) (s : Vec F S1024x256 .f32) (w0s : Vec F S256x512 .f32)
    (aT : Vec F S64x1024 .f32) (w0a : Vec F S64x512 .f32) (hd0 hd1 : Vec F S256x256 .f32) (wl0 wl1 : Vec F S256x1 .f32) :
    k0_pay1 b bl (k0_pay16 b s w0s aT w0a hd0) (k0_pay17 b s w0s aT w0a) hd1 wl0 wl1
      = chunk b bl s w0s aT w0a hd0 hd1 wl0 wl1 := rfl

end AnyInstance

/-! ## The four matrix products at an entry -/

abbrev D1 : DotDims S1024x256 S256x512 S1024x512 := dot_S1024x256_S256x512_S1024x512_1_0_0_1_n_n
abbrev D2 : DotDims S64x1024 S64x512 S1024x512 := dot_S64x1024_S64x512_S1024x512_0_0_1_1_n_n
abbrev D3 : DotDims S1024x256 S256x256 S1024x256 := dot_S1024x256_S256x256_S1024x256_1_0_0_1_n_n
abbrev D4 : DotDims S256x1 S1024x256 S1x1024 := dot_S256x1_S1024x256_S1x1024_0_1_1_0_n_n

/-- state rows against W0s: (q, j) ↦ Σ_k s[q,k] · w[k,j]. -/
theorem state_dot (s : FVec Ideal S1024x256 .f32) (w : FVec Ideal S256x512 .f32) (q : Fin 1024) (j : Fin 512) :
    matmul D1 none s w (constant S1024x512 .f32 0x00000000#32) (ix2 q j) = ∑ k : Fin 256, s (ix2 q k) * w (ix2 k j) :=
  DotOneAxis.matmul_zero_apply D1 256 rfl rfl none s w (ix2 q j) (fun k => ix2 q k) (fun k => ix2 k j)
    (fun k => funext fun a => Fin.ext (by
      match a with
      | ⟨0, _⟩ => exact rfl
      | ⟨1, _⟩ => exact (DotDims.lhsIdx_val_of_single D1 (cl := 1) rfl _ _).trans (contrEquiv1_symm_val D1 256 rfl rfl k)))
    (fun k => funext fun a => Fin.ext (by
      match a with
      | ⟨0, _⟩ => exact (DotDims.rhsIdx_val_of_single D1 (cr := 0) rfl _ _).trans (contrEquiv1_symm_val D1 256 rfl rfl k)
      | ⟨1, _⟩ => exact rfl))

/-- transposed action columns against W0a, the LEADING axes contracted: (q, j) ↦ Σ_k aT[k,q] · w[k,j]. -/
theorem action_dot (aT : FVec Ideal S64x1024 .f32) (w : FVec Ideal S64x512 .f32) (q : Fin 1024) (j : Fin 512) :
    matmul D2 none aT w (constant S1024x512 .f32 0x00000000#32) (ix2 q j) = ∑ k : Fin 64, aT (ix2 k q) * w (ix2 k j) :=
  DotOneAxis.matmul_zero_apply D2 64 rfl rfl none aT w (ix2 q j) (fun k => ix2 k q) (fun k => ix2 k j)
    (fun k => funext fun a => Fin.ext (by
      match a with
      | ⟨0, _⟩ => exact (DotDims.lhsIdx_val_of_single D2 (cl := 0) rfl _ _).trans (contrEquiv1_symm_val D2 64 rfl rfl k)
      | ⟨1, _⟩ => exact rfl))
    (fun k => funext fun a => Fin.ext (by
      match a with
      | ⟨0, _⟩ => exact (DotDims.rhsIdx_val_of_single D2 (cr := 0) rfl _ _).trans (contrEquiv1_symm_val D2 64 rfl rfl k)
      | ⟨1, _⟩ => exact rfl))

/-- half of the first layer against a diagonal block of the hidden weight: (q, k) ↦ Σ_k' x[q,k'] · w[k',k]. -/
theorem hidden_dot (x : FVec Ideal S1024x256 .f32) (w : FVec Ideal S256x256 .f32) (q : Fin 1024) (k : Fin 256) :
    matmul D3 none x w (constant S1024x256 .f32 0x00000000#32) (ix2 q k) = ∑ k' : Fin 256, x (ix2 q k') * w (ix2 k' k) :=
  DotOneAxis.matmul_zero_apply D3 256 rfl rfl none x w (ix2 q k) (fun k' => ix2 q k') (fun k' => ix2 k' k)
    (fun k' => funext fun a => Fin.ext (by
      match a with
      | ⟨0, _⟩ => exact rfl
      | ⟨1, _⟩ => exact (DotDims.lhsIdx_val_of_single D3 (cl := 1) rfl _ _).trans (contrEquiv1_symm_val D3 256 rfl rfl k')))
    (fun k' => funext fun a => Fin.ext (by
      match a with
      | ⟨0, _⟩ => exact (DotDims.rhsIdx_val_of_single D3 (cr := 0) rfl _ _).trans (contrEquiv1_symm_val D3 256 rfl rfl k')
      | ⟨1, _⟩ => exact rfl))

/-- a column of the last weight against the second hidden layer, the weight's LEADING axis against the layer's trailing
    one: (0, q) ↦ Σ_k w[k,0] · g[q,k]. -/
theorem last_dot (w : FVec Ideal S256x1 .f32) (g : FVec Ideal S1024x256 .f32) (q : Fin 1024) :
    matmul D4 none w g (constant S1x1024 .f32 0x00000000#32) (ix2 0 q) = ∑ k : Fin 256, w (ix2 k 0) * g (ix2 q k) :=
  DotOneAxis.matmul_zero_apply D4 256 rfl rfl none w g (ix2 0 q) (fun k => ix2 k 0) (fun k => ix2 q k)
    (fun k => funext fun a => Fin.ext (by
      match a with
      | ⟨0, _⟩ => exact (DotDims.lhsIdx_val_of_single D4 (cl := 0) rfl _ _).trans (contrEquiv1_symm_val D4 256 rfl rfl k)
      | ⟨1, _⟩ => exact rfl))
    (fun k => funext fun a => Fin.ext (by
      match a with
      | ⟨0, _⟩ => exact rfl
      | ⟨1, _⟩ => exact (DotDims.rhsIdx_val_of_single D4 (cr := 1) rfl _ _).trans (contrEquiv1_symm_val D4 256 rfl rfl k)))

/-! ## Slices, broadcast rows and the stacked pair at an entry -/

/-- Row 0 of the biases broadcast down the chunk's rows. -/
theorem bias0_apply (b : FVec Ideal S2x512 .f32) (q : Fin 1024) (j : Fin 512) :
    broadcastTo S1024x512 (extractStridedSlice S1x512 ![0, 0] b slices_S2x512_o0_0_S1x512) broadcasts_S1x512_S1024x512 (ix2 q j)
      = b (ix2 0 j) :=
  (broadcastTo_apply _ _ (ix2 q j) (ix2 0 j) (fun a => by match a with | ⟨0, _⟩ => rfl | ⟨1, _⟩ => rfl)).trans
    (extractStridedSlice_apply _ b _ (ix2 0 j) (ix2 0 j) (fun a => by match a with | ⟨0, _⟩ => rfl | ⟨1, _⟩ => exact (Nat.zero_add _).symm))

/-- Columns o .. o+255 of row 1 of the biases broadcast down the chunk's rows. -/
theorem bias1_apply (b : FVec Ideal S2x512 .f32) (o : ℕ) (ho : o + 256 ≤ 512) (hs : S2x512.Slices ![1, o] S1x256)
    (q : Fin 1024) (k : Fin 256) :
    broadcastTo S1024x256 (extractStridedSlice S1x256 ![1, o] b hs) broadcasts_S1x256_S1024x256 (ix2 q k)
      = b (ix2 1 (col o ho k)) :=
  (broadcastTo_apply _ _ (ix2 q k) (ix2 0 k) (fun a => by match a with | ⟨0, _⟩ => rfl | ⟨1, _⟩ => rfl)).trans
    (extractStridedSlice_apply _ b hs (ix2 0 k) (ix2 1 (col o ho k)) (fun a => by match a with | ⟨0, _⟩ => rfl | ⟨1, _⟩ => rfl))

/-- Columns o .. o+255 of a [1024, 512] value. -/
theorem half_apply (x : FVec Ideal S1024x512 .f32) (o : ℕ) (ho : o + 256 ≤ 512) (hs : S1024x512.Slices ![0, o] S1024x256)
    (q : Fin 1024) (k : Fin 256) :
    extractStridedSlice S1024x256 ![0, o] x hs (ix2 q k) = x (ix2 q (col o ho k)) :=
  extractStridedSlice_apply _ x hs (ix2 q k) (ix2 q (col o ho k))
    (fun a => by match a with | ⟨0, _⟩ => exact (Nat.zero_add _).symm | ⟨1, _⟩ => rfl)

/-- The last bias, a column, broadcast along the chunk's columns. -/
theorem lastBias_apply (bl : FVec Ideal S2x1 .f32) (r : Fin 2) (q : Fin 1024) :
    broadcastTo S2x1024 bl broadcasts_S2x1_S2x1024 (ix2 r q) = bl (ix2 r 0) :=
  broadcastTo_apply _ _ (ix2 r q) (ix2 r 0) (fun a => by match a with | ⟨0, _⟩ => rfl | ⟨1, _⟩ => rfl)

/-- Two rows stacked: row 0 is the first. -/
theorem stack_row0 (x y : FVec Ideal S1x1024 .f32) (q : Fin 1024) :
    concatenate S2x1024 0 [⟨S1x1024, x⟩, ⟨S1x1024, y⟩] concatenates_S1x1024_S1x1024_S2x1024_d0 (ix2 0 q) = x (ix2 0 q) :=
  concatenate_pair_apply_left (t := S2x1024) (s₁ := S1x1024) (s₂ := S1x1024) 0 x y concatenates_S1x1024_S1x1024_S2x1024_d0
    (ix2 (0 : Fin 2) q) rfl (ix2 (0 : Fin 1) q) (fun a => by match a with | ⟨0, _⟩ => rfl | ⟨1, _⟩ => rfl)

/-- Two rows stacked: row 1 is the second. -/
theorem stack_row1 (x y : FVec Ideal S1x1024 .f32) (q : Fin 1024) :
    concatenate S2x1024 0 [⟨S1x1024, x⟩, ⟨S1x1024, y⟩] concatenates_S1x1024_S1x1024_S2x1024_d0 (ix2 1 q) = y (ix2 0 q) :=
  concatenate_pair_apply_right (t := S2x1024) (s₁ := S1x1024) (s₂ := S1x1024) 0 x y concatenates_S1x1024_S1x1024_S2x1024_d0
    (ix2 (1 : Fin 2) q) rfl rfl (ix2 (0 : Fin 1) q)
    (fun a ha => by match a with | ⟨0, _⟩ => exact absurd rfl ha | ⟨1, _⟩ => rfl) (by rfl)

/-! ## The chunk's layers at an entry -/

/-- Row q of the chunk's first layer, as a function of the packed column. -/
abbrev firstLayer (b : FVec Ideal S2x512 .f32) (s : FVec Ideal S1024x256 .f32) (w0s : FVec Ideal S256x512 .f32)
    (aT : FVec Ideal S64x1024 .f32) (w0a : FVec Ideal S64x512 .f32) (q : Fin 1024) : Fin 512 → EReal :=
  layer0 (fun k => s (ix2 q k)) (fun k => aT (ix2 k q)) (fun k c => w0s (ix2 k c)) (fun k c => w0a (ix2 k c))
    (fun c => b (ix2 0 c))

/-- The first layer of the chunk at row q, column j. -/
theorem layer0_apply (b : FVec Ideal S2x512 .f32) (s : FVec Ideal S1024x256 .f32) (w0s : FVec Ideal S256x512 .f32)
    (aT : FVec Ideal S64x1024 .f32) (w0a : FVec Ideal S64x512 .f32) (q : Fin 1024) (j : Fin 512) :
    k0_pay2 (F := Ideal) b s w0s aT w0a (ix2 q j) = firstLayer b s w0s aT w0a q j := by
  unfold k0_pay2 firstLayer layer0
  simp only [maximumf_apply, addf_apply, broadcast_apply, shapeCast_self]
  rw [state_dot, action_dot, bias0_apply]
  exact congrArg (max _) Ideal.ofBits_zero_f32

/-- The second network's hidden layer at row q, its column k. -/
theorem hidden1_apply (b : FVec Ideal S2x512 .f32) (s : FVec Ideal S1024x256 .f32) (w0s : FVec Ideal S256x512 .f32)
    (aT : FVec Ideal S64x1024 .f32) (w0a : FVec Ideal S64x512 .f32) (hd1 : FVec Ideal S256x256 .f32) (q : Fin 1024) (k : Fin 256) :
    k0_pay3 (F := Ideal) b s w0s aT w0a hd1 (ix2 q k)
      = max ((∑ k' : Fin 256, firstLayer b s w0s aT w0a q (col 256 (by omega) k') * hd1 (ix2 k' k))
          + b (ix2 1 (col 256 (by omega) k))) 0 := by
  unfold k0_pay3
  simp only [maximumf_apply, addf_apply, broadcast_apply]
  rw [hidden_dot, bias1_apply b 256 (by omega)]
  simp only [half_apply _ 256 (by omega), layer0_apply]
  exact congrArg (max _) Ideal.ofBits_zero_f32

/-- The first network's output before the last bias, at column q. -/
theorem out0_apply (b : FVec Ideal S2x512 .f32) (s : FVec Ideal S1024x256 .f32) (w0s : FVec Ideal S256x512 .f32)
    (aT : FVec Ideal S64x1024 .f32) (w0a : FVec Ideal S64x512 .f32) (hd0 : FVec Ideal S256x256 .f32) (wl0 : FVec Ideal S256x1 .f32)
    (q : Fin 1024) :
    k0_pay4 (F := Ideal) b s w0s aT w0a hd0 wl0 (ix2 0 q)
      = ∑ k : Fin 256, wl0 (ix2 k 0)
          * max ((∑ k' : Fin 256, firstLayer b s w0s aT w0a q (col 0 (by omega) k') * hd0 (ix2 k' k))
              + b (ix2 1 (col 0 (by omega) k))) 0 := by
  unfold k0_pay4
  refine (last_dot wl0 _ q).trans ?_
  refine Finset.sum_congr rfl fun k _ => congrArg (wl0 (ix2 k 0) * ·) ?_
  simp only [maximumf_apply, addf_apply, broadcast_apply]
  rw [hidden_dot, bias1_apply b 0 (by omega)]
  simp only [half_apply _ 0 (by omega), layer0_apply]
  exact congrArg (max _) Ideal.ofBits_zero_f32

/-- The stored value's row 0 is the first network's output plus its last bias. -/
theorem stored_row0 (bl : FVec Ideal S2x1 .f32) (g : FVec Ideal S1024x256 .f32) (v : FVec Ideal S1x1024 .f32)
    (wl1 : FVec Ideal S256x1 .f32) (q : Fin 1024) :
    k0_pay5 (F := Ideal) bl g v wl1 (ix2 0 q) = v (ix2 0 q) + bl (ix2 0 0) := by
  unfold k0_pay5
  simp only [addf_apply]
  rw [stack_row0, lastBias_apply]

/-- Its row 1 is the second network's output plus its last bias. -/
theorem stored_row1 (bl : FVec Ideal S2x1 .f32) (g : FVec Ideal S1024x256 .f32) (v : FVec Ideal S1x1024 .f32)
    (wl1 : FVec Ideal S256x1 .f32) (q : Fin 1024) :
    k0_pay5 (F := Ideal) bl g v wl1 (ix2 1 q) = (∑ k : Fin 256, wl1 (ix2 k 0) * g (ix2 q k)) + bl (ix2 1 0) := by
  unfold k0_pay5
  simp only [addf_apply]
  rw [stack_row1, lastBias_apply, last_dot]

/-! ## The chunk at an entry: each row is its own network on its own half -/

/-- Row 0, column q: the first network on columns 0..255, whenever the loaded diagonal blocks are the corresponding
    entries of a packed hidden weight HD and a packed last weight WL. -/
theorem chunk_row0 (b : FVec Ideal S2x512 .f32) (bl : FVec Ideal S2x1 .f32) (s : FVec Ideal S1024x256 .f32)
    (w0s : FVec Ideal S256x512 .f32) (aT : FVec Ideal S64x1024 .f32) (w0a : FVec Ideal S64x512 .f32)
    (hd0 hd1 : FVec Ideal S256x256 .f32) (wl0 wl1 : FVec Ideal S256x1 .f32) (q : Fin 1024)
    (HD : Fin 512 → Fin 512 → EReal) (WL : Fin 512 → Fin 2 → EReal)
    (e_hd : ∀ k' k, hd0 (ix2 k' k) = HD (col 0 (by omega) k') (col 0 (by omega) k))
    (e_wl : ∀ k, wl0 (ix2 k 0) = WL (col 0 (by omega) k) 0) :
    chunk (F := Ideal) b bl s w0s aT w0a hd0 hd1 wl0 wl1 (ix2 0 q)
      = qNet (firstLayer b s w0s aT w0a q) HD (fun c => b (ix2 1 c)) WL (fun r => bl (ix2 r 0)) 0 (by omega) 0 := by
  unfold chunk
  rw [stored_row0, out0_apply]
  simp only [qNet, e_hd, e_wl]

/-- Row 1, column q: the second network on columns 256..511. -/
theorem chunk_row1 (b : FVec Ideal S2x512 .f32) (bl : FVec Ideal S2x1 .f32) (s : FVec Ideal S1024x256 .f32)
    (w0s : FVec Ideal S256x512 .f32) (aT : FVec Ideal S64x1024 .f32) (w0a : FVec Ideal S64x512 .f32)
    (hd0 hd1 : FVec Ideal S256x256 .f32) (wl0 wl1 : FVec Ideal S256x1 .f32) (q : Fin 1024)
    (HD : Fin 512 → Fin 512 → EReal) (WL : Fin 512 → Fin 2 → EReal)
    (e_hd : ∀ k' k, hd1 (ix2 k' k) = HD (col 256 (by omega) k') (col 256 (by omega) k))
    (e_wl : ∀ k, wl1 (ix2 k 0) = WL (col 256 (by omega) k) 1) :
    chunk (F := Ideal) b bl s w0s aT w0a hd0 hd1 wl0 wl1 (ix2 1 q)
      = qNet (firstLayer b s w0s aT w0a q) HD (fun c => b (ix2 1 c)) WL (fun r => bl (ix2 r 0)) 256 (by omega) 1 := by
  unfold chunk
  rw [stored_row1]
  simp only [hidden1_apply, qNet, e_hd, e_wl]

end Cert.KernelIdeal.Hand

end
-- ==== Proof.KernelBlock.lean ====
/-
  The kernel's [2, 4096] block at an entry, and from it the whole [2, 65536] output array.

  A grid point t receives rows 4096·t .. 4096·t + 4095 of the state, the same columns of the transposed action, and the
  weights whole. Its four stores fill columns 0..1023, 1024..2047, 2048..3071, 3072..4095 of the block with the four chunks'
  values; chunk c reads rows 1024·c .. of the block's state and the same columns of its transposed action. So the block at
  (r, y) is network r evaluated on the block's row y (`blockQ`), whichever chunk y falls in. Read through the window, row
  y of block t is batch row 4096·t + y, the blocks of the sixteen points tile the output array, and the array ends at
  (r, y) ↦ `critic … r y`: the two networks, each on its own half of the packed hidden axis.
-/
import proofs.«121478_g2000502508351383_pallasbulk_1291_12_alg».proof.Proof.Gen.KernelIdeal.Frame
import proofs.«121478_g2000502508351383_pallasbulk_1291_12_alg».proof.Proof.KernelChunk

noncomputable section

open scoped BigOperators
open Idealize.ShloMosaic Idealize.ShloMosaic.ValueIdx Idealize.ShloMosaic.TcCoe Idealize.SL.Sem
open Idealize.ShloMosaic.Pipeline (Dat)

namespace Cert.KernelIdeal.Hand

open Cert.KernelIdeal Cert.KernelIdeal.Gen Cert.TwinCritic

theorem hz : (![0, 0] : Fin 2 → Nat) = fun _ => 0 := funext fun a => by fin_cases a <;> rfl

/-- A load through a unit-stride rectangle of a rank-2 value reads the value shifted by the rectangle's offsets. -/
theorem ld2_apply {A B a b : ℕ} (X : Vec Ideal ⟨2, ![A, B]⟩ .f32) (o0 o1 : ℕ)
    (inb : ∀ c, ![o0, o1] c + (⟨2, ![a, b]⟩ : Shape).size c ≤ (⟨2, ![A, B]⟩ : Shape).size c)
    (i : Fin a) (j : Fin b) (i' : Fin A) (j' : Fin B) (h0 : i'.val = o0 + i.val) (h1 : j'.val = o1 + j.val) :
    View.ld (Val := Elt Ideal) X (Rect.unit (s := ⟨2, ![A, B]⟩) ![o0, o1] (⟨2, ![a, b]⟩ : Shape).size inb) (ix2 i j) = X (ix2 i' j') := by
  show X _ = X _
  refine congrArg X (funext fun c => Fin.ext ?_)
  match c with
  | ⟨0, _⟩ => show o0 + 1 * i.val = i'.val; omega
  | ⟨1, _⟩ => show o1 + 1 * j.val = j'.val; omega

/-- Network r on row y of a block: the block's state rows x0, transposed action columns x1, and the weights whole. -/
def blockQ (x0 : Vec Ideal S4096x256 .f32) (x1 : Vec Ideal S64x4096 .f32) (x2 : Vec Ideal S256x512 .f32)
    (x3 : Vec Ideal S64x512 .f32) (x4 : Vec Ideal S512x512 .f32) (x5 : Vec Ideal S512x2 .f32) (x6 : Vec Ideal S2x512 .f32)
    (x7 : Vec Ideal S2x1 .f32) (r : Fin 2) (y : Fin 4096) : EReal :=
  qTwin (layer0 (fun k => x0 (ix2 y k)) (fun k => x1 (ix2 k y)) (fun k c => x2 (ix2 k c)) (fun k c => x3 (ix2 k c))
      (fun c => x6 (ix2 0 c)))
    (fun k' k => x4 (ix2 k' k)) (fun c => x6 (ix2 1 c)) (fun k r => x5 (ix2 k r)) (fun r => x7 (ix2 r 0)) r

/-- A chunk whose loaded pieces are: the biases and first-layer weights whole, rows o .. o+1023 of the block's state, the same
    columns of its transposed action, the two diagonal blocks of the hidden weight and of the last weight. At its entry (r, q)
    it is network r on the block's row o + q. -/
theorem piece_of_loads (x0 : Vec Ideal S4096x256 .f32) (x1 : Vec Ideal S64x4096 .f32) (x2 : Vec Ideal S256x512 .f32)
    (x3 : Vec Ideal S64x512 .f32) (x4 : Vec Ideal S512x512 .f32) (x5 : Vec Ideal S512x2 .f32) (x6 : Vec Ideal S2x512 .f32)
    (x7 : Vec Ideal S2x1 .f32) (o : ℕ) (ho : o + 1024 ≤ 4096)
    (b : Vec Ideal S2x512 .f32) (bl : Vec Ideal S2x1 .f32) (s : Vec Ideal S1024x256 .f32) (w0s : Vec Ideal S256x512 .f32)
    (aT : Vec Ideal S64x1024 .f32) (w0a : Vec Ideal S64x512 .f32) (hd0 hd1 : Vec Ideal S256x256 .f32)
    (wl0 wl1 : Vec Ideal S256x1 .f32)
    (hb : b = x6) (hbl : bl = x7) (hw0s : w0s = x2) (hw0a : w0a = x3)
    (hs : ∀ (q : Fin 1024) (k : Fin 256), s (ix2 q k) = x0 (ix2 (⟨o + q.val, by omega⟩ : Fin 4096) k))
    (ha : ∀ (k : Fin 64) (q : Fin 1024), aT (ix2 k q) = x1 (ix2 k (⟨o + q.val, by omega⟩ : Fin 4096)))
    (hh0 : ∀ k' k : Fin 256, hd0 (ix2 k' k) = x4 (ix2 (col 0 (by omega) k') (col 0 (by omega) k)))
    (hh1 : ∀ k' k : Fin 256, hd1 (ix2 k' k) = x4 (ix2 (col 256 (by omega) k') (col 256 (by omega) k)))
    (hl0 : ∀ k : Fin 256, wl0 (ix2 k 0) = x5 (ix2 (col 0 (by omega) k) 0))
    (hl1 : ∀ k : Fin 256, wl1 (ix2 k 0) = x5 (ix2 (col 256 (by omega) k) 1))
    (r : Fin 2) (q : Fin 1024) :
    chunk (F := Ideal) b bl s w0s aT w0a hd0 hd1 wl0 wl1 (ix2 r q)
      = blockQ x0 x1 x2 x3 x4 x5 x6 x7 r ⟨o + q.val, by omega⟩ := by
  subst hb hbl hw0s hw0a
  have e0 : (fun k : Fin 256 => s (ix2 q k)) = fun k => x0 (ix2 (⟨o + q.val, by omega⟩ : Fin 4096) k) := funext (hs q)
  have e1 : (fun k : Fin 64 => aT (ix2 k q)) = fun k => x1 (ix2 k (⟨o + q.val, by omega⟩ : Fin 4096)) :=
    funext fun k => ha k q
  match r with
  | ⟨0, _⟩ =>
    refine (chunk_row0 b bl s w0s aT w0a hd0 hd1 wl0 wl1 q (fun k' k => x4 (ix2 k' k)) (fun k r => x5 (ix2 k r)) hh0 hl0).trans ?_
    simp only [firstLayer, blockQ, e0, e1]
    exact (qTwin_zero _ _ _ _ _).symm
  | ⟨1, _⟩ =>
    refine (chunk_row1 b bl s w0s aT w0a hd0 hd1 wl0 wl1 q (fun k' k => x4 (ix2 k' k)) (fun k r => x5 (ix2 k r)) hh1 hl1).trans ?_
    simp only [firstLayer, blockQ, e0, e1]
    exact (qTwin_one _ _ _ _ _).symm

/-- The same of the pieces the body loads: the chunk that starts at row o of the block. -/
theorem piece_apply (x0 : Vec Ideal S4096x256 .f32) (x1 : Vec Ideal S64x4096 .f32) (x2 : Vec Ideal S256x512 .f32)
    (x3 : Vec Ideal S64x512 .f32) (x4 : Vec Ideal S512x512 .f32) (x5 : Vec Ideal S512x2 .f32) (x6 : Vec Ideal S2x512 .f32)
    (x7 : Vec Ideal S2x1 .f32) (o : ℕ) (ho : o + 1024 ≤ 4096)
    (inbS : ∀ a, ![o, 0] a + S1024x256.size a ≤ S4096x256.size a)
    (inbA : ∀ a, ![0, o] a + S64x1024.size a ≤ S64x4096.size a) (r : Fin 2) (q : Fin 1024) :
    chunk (F := Ideal) (View.ld x6 r0_0) (View.ld x7 r0_1) (View.ld x0 (Rect.unit (s := S4096x256) ![o, 0] S1024x256.size inbS))
        (View.ld x2 r0_3) (View.ld x1 (Rect.unit (s := S64x4096) ![0, o] S64x1024.size inbA)) (View.ld x3 r0_5)
        (View.ld x4 r0_6) (View.ld x4 r0_7) (View.ld x5 r0_8) (View.ld x5 r0_9) (ix2 r q)
      = blockQ x0 x1 x2 x3 x4 x5 x6 x7 r ⟨o + q.val, by omega⟩ :=
  piece_of_loads x0 x1 x2 x3 x4 x5 x6 x7 o ho _ _ _ _ _ _ _ _ _ _
    (View.ld_unit_zero (S := S2x512) hz _ x6) (View.ld_unit_zero (S := S2x1) hz _ x7)
    (View.ld_unit_zero (S := S256x512) hz _ x2) (View.ld_unit_zero (S := S64x512) hz _ x3)
    (fun q k => ld2_apply x0 o 0 inbS q k _ _ rfl (Nat.zero_add _).symm)
    (fun k q => ld2_apply x1 0 o inbA k q _ _ (Nat.zero_add _).symm rfl)
    (fun k' k => ld2_apply x4 0 0 _ k' k _ _ rfl rfl) (fun k' k => ld2_apply x4 256 256 _ k' k _ _ rfl rfl)
    (fun k => ld2_apply x5 0 0 _ k 0 _ _ rfl rfl) (fun k => ld2_apply x5 256 1 _ k 0 _ _ rfl rfl) r q

/-- The block as a function of its index: network (row) on the block's row (column). -/
def blockG (x0 : Vec Ideal S4096x256 .f32) (x1 : Vec Ideal S64x4096 .f32) (x2 : Vec Ideal S256x512 .f32)
    (x3 : Vec Ideal S64x512 .f32) (x4 : Vec Ideal S512x512 .f32) (x5 : Vec Ideal S512x2 .f32) (x6 : Vec Ideal S2x512 .f32)
    (x7 : Vec Ideal S2x1 .f32) : S2x4096.Idx → EReal :=
  fun j => blockQ x0 x1 x2 x3 x4 x5 x6 x7 ⟨(j 0).val, idx2_lt0 j⟩ ⟨(j 1).val, idx2_lt1 j⟩

/-- What the body leaves in the output's staging buffer: each of the four stores holds `blockG` on its columns, and the four
    tile the buffer. -/
theorem block_eq (x0 : Vec Ideal S4096x256 .f32) (x1 : Vec Ideal S64x4096 .f32) (x2 : Vec Ideal S256x512 .f32)
    (x3 : Vec Ideal S64x512 .f32) (x4 : Vec Ideal S512x512 .f32) (x5 : Vec Ideal S512x2 .f32) (x6 : Vec Ideal S2x512 .f32)
    (x7 : Vec Ideal S2x1 .f32) :
    out0_8 (F := Ideal) x0 x1 x2 x3 x4 x5 x6 x7 = blockG x0 x1 x2 x3 x4 x5 x6 x7 := by
  funext y
  unfold out0_8
  refine View.canon_apply_of_pieces (Val := Elt Ideal) (S := S2x4096) (e := .f32) (blockG x0 x1 x2 x3 x4 x5 x6 x7) _ ?_ y (cover0_8 _ _ _ _ y)
  intro p hp x
  simp only [List.mem_cons, List.not_mem_nil, or_false] at hp
  rcases hp with rfl | rfl | rfl | rfl
  · obtain ⟨r, q, rfl⟩ : ∃ (r : Fin 2) (q : Fin 1024), x = (ix2 r q : S2x1024.Idx) := ⟨x 0, x 1, eq_ix2 (n0 := 2) (n1 := 1024) x⟩
    show chunk (F := Ideal) (View.ld x6 r0_0) (View.ld x7 r0_1) (View.ld x0 r0_17) (View.ld x2 r0_3) (View.ld x1 r0_18) (View.ld x3 r0_5)
        (View.ld x4 r0_6) (View.ld x4 r0_7) (View.ld x5 r0_8) (View.ld x5 r0_9) (ix2 r q) = _
    refine (piece_apply x0 x1 x2 x3 x4 x5 x6 x7 3072 (by omega) inb_S4096x256_S1024x256_3072_0 inb_S64x4096_S64x1024_0_3072 r q).trans ?_
    exact congrArg₂ (blockQ x0 x1 x2 x3 x4 x5 x6 x7) (Fin.ext (by show r.val = 0 + 1 * r.val; omega))
      (Fin.ext (by show 3072 + q.val = 3072 + 1 * q.val; omega))
  · obtain ⟨r, q, rfl⟩ : ∃ (r : Fin 2) (q : Fin 1024), x = (ix2 r q : S2x1024.Idx) := ⟨x 0, x 1, eq_ix2 (n0 := 2) (n1 := 1024) x⟩
    show chunk (F := Ideal) (View.ld x6 r0_0) (View.ld x7 r0_1) (View.ld x0 r0_14) (View.ld x2 r0_3) (View.ld x1 r0_15) (View.ld x3 r0_5)
        (View.ld x4 r0_6) (View.ld x4 r0_7) (View.ld x5 r0_8) (View.ld x5 r0_9) (ix2 r q) = _
    refine (piece_apply x0 x1 x2 x3 x4 x5 x6 x7 2048 (by omega) inb_S4096x256_S1024x256_2048_0 inb_S64x4096_S64x1024_0_2048 r q).trans ?_
    exact congrArg₂ (blockQ x0 x1 x2 x3 x4 x5 x6 x7) (Fin.ext (by show r.val = 0 + 1 * r.val; omega))
      (Fin.ext (by show 2048 + q.val = 2048 + 1 * q.val; omega))
  · obtain ⟨r, q, rfl⟩ : ∃ (r : Fin 2) (q : Fin 1024), x = (ix2 r q : S2x1024.Idx) := ⟨x 0, x 1, eq_ix2 (n0 := 2) (n1 := 1024) x⟩
    show chunk (F := Ideal) (View.ld x6 r0_0) (View.ld x7 r0_1) (View.ld x0 r0_11) (View.ld x2 r0_3) (View.ld x1 r0_12) (View.ld x3 r0_5)
        (View.ld x4 r0_6) (View.ld x4 r0_7) (View.ld x5 r0_8) (View.ld x5 r0_9) (ix2 r q) = _
    refine (piece_apply x0 x1 x2 x3 x4 x5 x6 x7 1024 (by omega) inb_S4096x256_S1024x256_1024_0 inb_S64x4096_S64x1024_0_1024 r q).trans ?_
    exact congrArg₂ (blockQ x0 x1 x2 x3 x4 x5 x6 x7) (Fin.ext (by show r.val = 0 + 1 * r.val; omega))
      (Fin.ext (by show 1024 + q.val = 1024 + 1 * q.val; omega))
  · obtain ⟨r, q, rfl⟩ : ∃ (r : Fin 2) (q : Fin 1024), x = (ix2 r q : S2x1024.Idx) := ⟨x 0, x 1, eq_ix2 (n0 := 2) (n1 := 1024) x⟩
    show chunk (F := Ideal) (View.ld x6 r0_0) (View.ld x7 r0_1) (View.ld x0 r0_2) (View.ld x2 r0_3) (View.ld x1 r0_4) (View.ld x3 r0_5)
        (View.ld x4 r0_6) (View.ld x4 r0_7) (View.ld x5 r0_8) (View.ld x5 r0_9) (ix2 r q) = _
    refine (piece_apply x0 x1 x2 x3 x4 x5 x6 x7 0 (by omega) inb_S4096x256_S1024x256_0_0 inb_S64x4096_S64x1024_0_0 r q).trans ?_
    exact congrArg₂ (blockQ x0 x1 x2 x3 x4 x5 x6 x7) (Fin.ext (by show r.val = 0 + 1 * r.val; omega))
      (Fin.ext (by show 0 + q.val = 0 + 1 * q.val; omega))

end Cert.KernelIdeal.Hand
end
-- ==== Proof.KernelArray.lean ====
/-
  The kernel's output array after the run, and the two results.

  What the region finds: the state and the weights as launched; the action transposed by the one host line before the
  region, so entry (k, y) of that array is entry (y, k) of the action. Window 0's block at point t is rows
  4096·t .. of the state, window 1's the same columns of the transposed action, the weight windows' blocks are the weights
  whole, and the output's block is columns 4096·t .. of the [2, 65536] output. So point t writes back the block of
  (r, y) ↦ `critic … r y` (the two networks, each on its own half), the sixteen blocks tile the output, and the output array
  ends holding that function. The lines after the region cut its two rows out and lay each as a [65536, 1] column.
-/
import proofs.«121478_g2000502508351383_pallasbulk_1291_12_alg».proof.Proof.KernelBlock
import Idealize.ShloMosaic.Lib.StableHlo.Run
import Idealize.ShloMosaic.Lib.Tactic

noncomputable section

open scoped BigOperators
open Idealize.ShloMosaic Idealize.ShloMosaic.ValueIdx Idealize.ShloMosaic.TcCoe Idealize.SL.Sem
open Idealize.ShloMosaic.Pipeline (Dat)

namespace Cert.KernelIdeal.Hand

open Cert.KernelIdeal Cert.KernelIdeal.Gen Cert.TwinCritic

variable (m : (ℓ : Loc nD τ sig) → Buf (Elt Ideal) ℓ) (ρ : Dev nD → PrngReg)

/-! ## Where each window's block sits -/

/-- The index maps over the sixteen points: the state's block index is (t, 0), the transposed action's and the output's
    (0, t), every weight's (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = t.val :=
  (by decide +kernel : ∀ t : Fin grid0.N, _)

/-- The one host line before the region: window 1's array is the action transposed. -/
theorem V_actionT (c : Dev nD) :
    (V m c main_call0_v0 : S64x65536.Idx → EReal)
      = transpose S64x65536 [1, 0] (m ((c : Thread nD τ).loc main_arg1) : S65536x64.Idx → EReal) transposes_S65536x64_S64x65536_1_0 := by
  show StableHlo.after hostOps0 (fun b => m (c, b)) (Proc.devRef .tc main_call0_v0) = _
  after_results
  rfl

/-- Batch row of row y of block t. -/
def rowOf (t : Fin cfg0.N) (y : Fin 4096) : Fin 65536 :=
  ⟨t.val * 4096 + y.val, by have h := t.isLt; have : cfg0.N = 16 := N_0; omega⟩

theorem rowOf_val (t : Fin cfg0.N) (y : Fin 4096) : (rowOf t y).val = t.val * 4096 + y.val := rfl

/-- Row y of the state's block at point t is batch row 4096·t + y. -/
theorem iblk0_apply (c : Dev nD) (t : Fin cfg0.N) (y : Fin 4096) (k : Fin 256) :
    (iblk m c 0 t : Vec Ideal S4096x256 .f32) (ix2 y k)
      = (m ((c : Thread nD τ).loc main_arg0) : S65536x256.Idx → EReal) (ix2 (rowOf t y) k) := by
  obtain ⟨e00, e01, -⟩ := idx_facts t
  unfold iblk
  rw [View.read_apply]
  show V m c main_arg0 _ = m (c.tc.loc main_arg0) _
  rw [V_main_arg0]
  refine congrArg _ (funext fun a => Fin.ext ?_)
  match a with
  | ⟨0, _⟩ => show win0_0.index t (0 : Fin 2) * 4096 + 1 * y.val = t.val * 4096 + y.val; rw [e00]; omega
  | ⟨1, _⟩ => show win0_0.index t (1 : Fin 2) * 256 + 1 * k.val = k.val; rw [e01]; omega

/-- Column y of the transposed action's block at point t is batch row 4096·t + y of the action. -/
theorem iblk1_apply (c : Dev nD) (t : Fin cfg0.N) (k : Fin 64) (y : Fin 4096) :
    (iblk m c 1 t : Vec Ideal S64x4096 .f32) (ix2 k y)
      = (m ((c : Thread nD τ).loc main_arg1) : S65536x64.Idx → EReal) (ix2 (rowOf t y) k) := by
  obtain ⟨-, -, e10, e11, -⟩ := idx_facts t
  unfold iblk
  rw [View.read_apply]
  show (V m c main_call0_v0 : S64x65536.Idx → EReal) _ = m (c.tc.loc main_arg1) _
  rw [V_actionT]
  refine (transpose_apply _ _ _ _ (ix2 (rowOf t y) k) (fun b => ?_))
  match b with
  | ⟨0, _⟩ => show k.val = win0_1.index t (0 : Fin 2) * 64 + 1 * k.val; rw [e10]; omega
  | ⟨1, _⟩ => show t.val * 4096 + y.val = win0_1.index t (1 : Fin 2) * 4096 + 1 * y.val; rw [e11]; omega

theorem iblk2_apply (c : Dev nD) (t : Fin cfg0.N) (i : Fin 256) (j : Fin 512) :
    (iblk m c 2 t : Vec Ideal S256x512 .f32) (ix2 i j) = (m ((c : Thread nD τ).loc main_arg2) : S256x512.Idx → EReal) (ix2 i j) := by
  have ef := idx_facts t
  unfold iblk
  rw [View.read_apply]
  show V m c main_arg2 _ = m (c.tc.loc main_arg2) _
  rw [V_main_arg2]
  refine congrArg _ (funext fun a => Fin.ext ?_)
  match a with
  | ⟨0, _⟩ => show win0_2.index t (0 : Fin 2) * 256 + 1 * i.val = i.val; omega
  | ⟨1, _⟩ => show win0_2.index t (1 : Fin 2) * 512 + 1 * j.val = j.val; omega

theorem iblk3_apply (c : Dev nD) (t : Fin cfg0.N) (i : Fin 64) (j : Fin 512) :
    (iblk m c 3 t : Vec Ideal S64x512 .f32) (ix2 i j) = (m ((c : Thread nD τ).loc main_arg3) : S64x512.Idx → EReal) (ix2 i j) := by
  have ef := idx_facts t
  unfold iblk
  rw [View.read_apply]
  show V m c main_arg3 _ = m (c.tc.loc main_arg3) _
  rw [V_main_arg3]
  refine congrArg _ (funext fun a => Fin.ext ?_)
  match a with
  | ⟨0, _⟩ => show win0_3.index t (0 : Fin 2) * 64 + 1 * i.val = i.val; omega
  | ⟨1, _⟩ => show win0_3.index t (1 : Fin 2) * 512 + 1 * j.val = j.val; omega

theorem iblk4_apply (c : Dev nD) (t : Fin cfg0.N) (i : Fin 512) (j : Fin 512) :
    (iblk m c 4 t : Vec Ideal S512x512 .f32) (ix2 i j) = (m ((c : Thread nD τ).loc main_arg4) : S512x512.Idx → EReal) (ix2 i j) := by
  have ef := idx_facts t
  unfold iblk
  rw [View.read_apply]
  show V m c main_arg4 _ = m (c.tc.loc main_arg4) _
  rw [V_main_arg4]
  refine congrArg _ (funext fun a => Fin.ext ?_)
  match a with
  | ⟨0, _⟩ => show win0_4.index t (0 : Fin 2) * 512 + 1 * i.val = i.val; omega
  | ⟨1, _⟩ => show win0_4.index t (1 : Fin 2) * 512 + 1 * j.val = j.val; omega

theorem iblk5_apply (c : Dev nD) (t : Fin cfg0.N) (i : Fin 512) (j : Fin 2) :
    (iblk m c 5 t : Vec Ideal S512x2 .f32) (ix2 i j) = (m ((c : Thread nD τ).loc main_arg5) : S512x2.Idx → EReal) (ix2 i j) := by
  have ef := idx_facts t
  unfold iblk
  rw [View.read_apply]
  show V m c main_arg5 _ = m (c.tc.loc main_arg5) _
  rw [V_main_arg5]
  refine congrArg _ (funext fun a => Fin.ext ?_)
  match a with
  | ⟨0, _⟩ => show win0_5.index t (0 : Fin 2) * 512 + 1 * i.val = i.val; omega
  | ⟨1, _⟩ => show win0_5.index t (1 : Fin 2) * 2 + 1 * j.val = j.val; omega

theorem iblk6_apply (c : Dev nD) (t : Fin cfg0.N) (i : Fin 2) (j : Fin 512) :
    (iblk m c 6 t : Vec Ideal S2x512 .f32) (ix2 i j) = (m ((c : Thread nD τ).loc main_arg6) : S2x512.Idx → EReal) (ix2 i j) := by
  have ef := idx_facts t
  unfold iblk
  rw [View.read_apply]
  show V m c main_arg6 _ = m (c.tc.loc main_arg6) _
  rw [V_main_arg6]
  refine congrArg _ (funext fun a => Fin.ext ?_)
  match a with
  | ⟨0, _⟩ => show win0_6.index t (0 : Fin 2) * 2 + 1 * i.val = i.val; omega
  | ⟨1, _⟩ => show win0_6.index t (1 : Fin 2) * 512 + 1 * j.val = j.val; omega

theorem iblk7_apply (c : Dev nD) (t : Fin cfg0.N) (i : Fin 2) (j : Fin 1) :
    (iblk m c 7 t : Vec Ideal S2x1 .f32) (ix2 i j) = (m ((c : Thread nD τ).loc main_arg7) : S2x1.Idx → EReal) (ix2 i j) := by
  have ef := idx_facts t
  unfold iblk
  rw [View.read_apply]
  show V m c main_arg7 _ = m (c.tc.loc main_arg7) _
  rw [V_main_arg7]
  refine congrArg _ (funext fun a => Fin.ext ?_)
  match a with
  | ⟨0, _⟩ => show win0_7.index t (0 : Fin 2) * 2 + 1 * i.val = i.val; omega
  | ⟨1, _⟩ => show win0_7.index t (1 : Fin 2) * 1 + 1 * j.val = j.val; omega

/-! ## The output array -/

/-- The arrays as launched, as functions of their coordinates. -/
abbrev stateAt (c : Dev nD) : Fin 65536 → Fin 256 → EReal :=
  fun y k => (m ((c : Thread nD τ).loc main_arg0) : S65536x256.Idx → EReal) (ix2 y k)
abbrev actionAt (c : Dev nD) : Fin 65536 → Fin 64 → EReal :=
  fun y k => (m ((c : Thread nD τ).loc main_arg1) : S65536x64.Idx → EReal) (ix2 y k)
abbrev w0sAt (c : Dev nD) : Fin 256 → Fin 512 → EReal :=
  fun k j => (m ((c : Thread nD τ).loc main_arg2) : S256x512.Idx → EReal) (ix2 k j)
abbrev w0aAt (c : Dev nD) : Fin 64 → Fin 512 → EReal :=
  fun k j => (m ((c : Thread nD τ).loc main_arg3) : S64x512.Idx → EReal) (ix2 k j)
abbrev hiddenAt (c : Dev nD) : Fin 512 → Fin 512 → EReal :=
  fun k' k => (m ((c : Thread nD τ).loc main_arg4) : S512x512.Idx → EReal) (ix2 k' k)
abbrev lastAt (c : Dev nD) : Fin 512 → Fin 2 → EReal :=
  fun k r => (m ((c : Thread nD τ).loc main_arg5) : S512x2.Idx → EReal) (ix2 k r)
abbrev biasAt (c : Dev nD) : Fin 2 → Fin 512 → EReal :=
  fun r j => (m ((c : Thread nD τ).loc main_arg6) : S2x512.Idx → EReal) (ix2 r j)
abbrev lastBiasAt (c : Dev nD) : Fin 2 → EReal :=
  fun r => (m ((c : Thread nD τ).loc main_arg7) : S2x1.Idx → EReal) (ix2 r 0)

/-- Output r of batch row y from the arrays as launched: the two networks, each on its own half of the packed hidden axis. -/
def outQ (c : Dev nD) (r : Fin 2) (y : Fin 65536) : EReal :=
  critic (stateAt m c) (actionAt m c) (w0sAt m c) (w0aAt m c) (hiddenAt m c) (lastAt m c) (biasAt m c) (lastBiasAt m c) r y

/-- The [2, 65536] output array: entry (r, y) is output r of batch row y. -/
def outArr (c : Dev nD) : S2x65536.Idx → EReal :=
  fun i => outQ m c ⟨(i 0).val, idx2_lt0 i⟩ ⟨(i 1).val, idx2_lt1 i⟩

/-- Network r on a block's row y is `critic` on a batch row Y, as soon as the block's arrays are the batch's at that row. -/
theorem blockQ_eq_critic (x0 : Vec Ideal S4096x256 .f32) (x1 : Vec Ideal S64x4096 .f32) (x2 : Vec Ideal S256x512 .f32)
    (x3 : Vec Ideal S64x512 .f32) (x4 : Vec Ideal S512x512 .f32) (x5 : Vec Ideal S512x2 .f32) (x6 : Vec Ideal S2x512 .f32)
    (x7 : Vec Ideal S2x1 .f32)
    (S : Fin 65536 → Fin 256 → EReal) (A : Fin 65536 → Fin 64 → EReal) (W0S : Fin 256 → Fin 512 → EReal)
    (W0A : Fin 64 → Fin 512 → EReal) (HD : Fin 512 → Fin 512 → EReal) (WL : Fin 512 → Fin 2 → EReal)
    (B : Fin 2 → Fin 512 → EReal) (BL : Fin 2 → EReal) (y : Fin 4096) (Y : Fin 65536)
    (h0 : ∀ k, x0 (ix2 y k) = S Y k) (h1 : ∀ k, x1 (ix2 k y) = A Y k) (h2 : ∀ k j, x2 (ix2 k j) = W0S k j)
    (h3 : ∀ k j, x3 (ix2 k j) = W0A k j) (h4 : ∀ k' k, x4 (ix2 k' k) = HD k' k) (h5 : ∀ k r, x5 (ix2 k r) = WL k r)
    (h6 : ∀ r j, x6 (ix2 r j) = B r j) (h7 : ∀ r, x7 (ix2 r 0) = BL r) (r : Fin 2) :
    blockQ x0 x1 x2 x3 x4 x5 x6 x7 r y = critic S A W0S W0A HD WL B BL r Y := by
  unfold blockQ critic
  rw [show (fun k => x0 (ix2 y k)) = S Y from funext h0, show (fun k => x1 (ix2 k y)) = A Y from funext h1,
    show (fun k j => x2 (ix2 k j)) = W0S from funext fun k => funext (h2 k),
    show (fun k j => x3 (ix2 k j)) = W0A from funext fun k => funext (h3 k),
    show (fun k' k => x4 (ix2 k' k)) = HD from funext fun k' => funext (h4 k'),
    show (fun k r => x5 (ix2 k r)) = WL from funext fun k => funext (h5 k),
    show (fun j => x6 (ix2 0 j)) = B 0 from funext (h6 0), show (fun j => x6 (ix2 1 j)) = B 1 from funext (h6 1),
    show (fun r => x7 (ix2 r 0)) = BL from funext h7]

/-- WHAT POINT t WRITES BACK is block t of the output array. -/
theorem flushed_eq (c : Dev nD) (t : Fin cfg0.N) :
    (dats m 0 c).flushed 8 t = ((cfg0.win 8).blk t).view.read (Elt Ideal) (outArr m c) := by
  show (cfg0.win 8).cut (grid0.coords t) ((dats m 0 c).after 8 t) = _
  rw [after0_8, block_eq (iblk m c 0 t) (iblk m c 1 t) (iblk m c 2 t) (iblk m c 3 t) (iblk m c 4 t) (iblk m c 5 t)
    (iblk m c 6 t) (iblk m c 7 t)]
  obtain ⟨-, -, -, -, -, -, -, -, -, -, -, -, -, -, -, -, e80, e81⟩ := idx_facts t
  funext j
  show blockQ (iblk m c 0 t) (iblk m c 1 t) (iblk m c 2 t) (iblk m c 3 t) (iblk m c 4 t) (iblk m c 5 t) (iblk m c 6 t)
      (iblk m c 7 t) ⟨(j 0).val, idx2_lt0 j⟩ ⟨(j 1).val, idx2_lt1 j⟩
    = outArr m c (((cfg0.win 8).blk t).view.emb j)
  refine (blockQ_eq_critic _ _ _ _ _ _ _ _ (stateAt m c) (actionAt m c) (w0sAt m c) (w0aAt m c) (hiddenAt m c) (lastAt m c)
    (biasAt m c) (lastBiasAt m c) ⟨(j 1).val, idx2_lt1 j⟩ (rowOf t ⟨(j 1).val, idx2_lt1 j⟩)
    (iblk0_apply m c t _) (fun k => iblk1_apply m c t k _) (iblk2_apply m c t) (iblk3_apply m c t) (iblk4_apply m c t)
    (iblk5_apply m c t) (iblk6_apply m c t) (fun r => iblk7_apply m c t r 0) ⟨(j 0).val, idx2_lt0 j⟩).trans ?_
  refine congrArg₂ (outQ m c) (Fin.ext ?_) (Fin.ext ?_)
  · show (j 0).val = win0_8.index t (0 : Fin 2) * 2 + 1 * (j 0).val; rw [e80]; omega
  · show t.val * 4096 + (j 1).val = win0_8.index t (1 : Fin 2) * 4096 + 1 * (j 1).val; rw [e81]; omega

/-- An index of the output array is in point t's block iff each coordinate is in the block's range on its axis. -/
theorem mem_blk (t : Fin cfg0.N) (i : S2x65536.Idx) :
    i ∈ ((cfg0.win 8).blk t).view.set
      ↔ ∀ a : Fin 2, win0_8.index t a * S2x4096.size a ≤ (i a).val ∧ (i a).val < win0_8.index t a * S2x4096.size a + S2x4096.size a := by
  show i ∈ ((View.whole main_call0_v1).slice (win0_8.rect t)).set ↔ _
  rw [View.set_slice_whole, Rect.mem_set_unit]
  exact Iff.rfl

/-- THE OUTPUT ARRAY after the run: column y lies in the block of point y / 4096, so the sixteen blocks cover it. -/
theorem final (c : Dev nD) : (dats m 0 c).arrAt 8 cfg0.N = outArr m c :=
  (dats m 0 c).arrAt_eq_of_cover 8 (outArr m c) (fun t _ => flushed_eq m c t) fun i => by
    have hN : cfg0.N = 16 := N_0
    have hi0 : (i 0).val < 2 := idx2_lt0 i
    have hi1 : (i 1).val < 65536 := idx2_lt1 i
    let t : Fin cfg0.N := ⟨(i 1).val / 4096, by omega⟩
    obtain ⟨-, -, -, -, -, -, -, -, -, -, -, -, -, -, -, -, e80, e81⟩ := idx_facts t
    have ht : t.val = (i 1).val / 4096 := rfl
    refine ⟨t, flush0_8 t, ?_⟩
    rw [mem_blk]
    intro a
    match a with
    | ⟨0, _⟩ => show win0_8.index t (0 : Fin 2) * 2 ≤ (i 0).val ∧ (i 0).val < win0_8.index t (0 : Fin 2) * 2 + 2; omega
    | ⟨1, _⟩ => show win0_8.index t (1 : Fin 2) * 4096 ≤ (i 1).val ∧ (i 1).val < win0_8.index t (1 : Fin 2) * 4096 + 4096; omega

/-! ## The two results and the run -/

/-- Row 0 of the output array laid as a column: @main's result main_v0_0. -/
theorem result0 (c : Dev nD) :
    Pipeline.afterTail₀ cfgs (dats m) 0 (V0 m) [hostOps1] c main_v0_0
      = (fun i => outQ m c 0 ⟨(i 0).val, idx2_lt0 i⟩ : S65536x1.Idx → EReal) := by
  unfold Pipeline.afterTail₀
  show StableHlo.after hostOps1 _ (Proc.devRef .tc main_v0_0) = _
  after_results
  show shapeCast S65536x1 (shapeCast S65536 (extractStridedSlice S1x65536 ![0, 0]
      (Pipeline.withArrays spec0 c (V0 m c) (fun w => (dats m 0 c).arrAt w cfg0.N) (Proc.devRef .tc (Pipeline.arrRef spec0 8)) :
        S2x65536.Idx → EReal) slices_S2x65536_S1x65536_0_0) shapeCasts_S1x65536_S65536) shapeCasts_S65536_S65536x1 = _
  rw [(Pipeline.withArrays_arr spec0 launch0.win.arr_inj c (V0 m c) (fun w => (dats m 0 c).arrAt w cfg0.N) 8).trans (final m c)]
  funext i
  obtain ⟨y, z, rfl⟩ : ∃ (y : Fin 65536) (z : Fin 1), i = ix2 y z := ⟨i 0, i 1, eq_ix2 i⟩
  refine (shapeCast_apply _ _ (ix2 y z) (ix1 y) ?_).trans ((shapeCast_apply _ _ (ix1 y) (ix2 (0 : Fin 1) y) ?_).trans
    ((extractStridedSlice_apply _ (outArr m c) _ (ix2 (0 : Fin 1) y) (ix2 (0 : Fin 2) y) (fun a => ?_)).trans ?_))
  · rw [Shape.rowMajor_val_one, Shape.rowMajor_val_two]
    show y.val = y.val * 1 + z.val
    have := z.isLt; omega
  · rw [Shape.rowMajor_val_two, Shape.rowMajor_val_one]
    show 0 * 65536 + y.val = y.val
    omega
  · match a with
    | ⟨0, _⟩ => rfl
    | ⟨1, _⟩ => exact (Nat.zero_add _).symm
  · rfl

/-- Row 1 of the output array laid as a column: @main's result main_v0_1. -/
theorem result1 (c : Dev nD) :
    Pipeline.afterTail₀ cfgs (dats m) 0 (V0 m) [hostOps1] c main_v0_1
      = (fun i => outQ m c 1 ⟨(i 0).val, idx2_lt0 i⟩ : S65536x1.Idx → EReal) := by
  unfold Pipeline.afterTail₀
  show StableHlo.after hostOps1 _ (Proc.devRef .tc main_v0_1) = _
  after_results
  show shapeCast S65536x1 (shapeCast S65536 (extractStridedSlice S1x65536 ![1, 0]
      (Pipeline.withArrays spec0 c (V0 m c) (fun w => (dats m 0 c).arrAt w cfg0.N) (Proc.devRef .tc (Pipeline.arrRef spec0 8)) :
        S2x65536.Idx → EReal) slices_S2x65536_S1x65536_1_0) shapeCasts_S1x65536_S65536) shapeCasts_S65536_S65536x1 = _
  rw [(Pipeline.withArrays_arr spec0 launch0.win.arr_inj c (V0 m c) (fun w => (dats m 0 c).arrAt w cfg0.N) 8).trans (final m c)]
  funext i
  obtain ⟨y, z, rfl⟩ : ∃ (y : Fin 65536) (z : Fin 1), i = ix2 y z := ⟨i 0, i 1, eq_ix2 i⟩
  refine (shapeCast_apply _ _ (ix2 y z) (ix1 y) ?_).trans ((shapeCast_apply _ _ (ix1 y) (ix2 (0 : Fin 1) y) ?_).trans
    ((extractStridedSlice_apply _ (outArr m c) _ (ix2 (0 : Fin 1) y) (ix2 (1 : Fin 2) y) (fun a => ?_)).trans ?_))
  · rw [Shape.rowMajor_val_one, Shape.rowMajor_val_two]
    show y.val = y.val * 1 + z.val
    have := z.isLt; omega
  · rw [Shape.rowMajor_val_two, Shape.rowMajor_val_one]
    show 0 * 65536 + y.val = y.val
    omega
  · match a with
    | ⟨0, _⟩ => rfl
    | ⟨1, _⟩ => exact (Nat.zero_add _).symm
  · rfl

/-- The run, read: the two results at the two networks' outputs over the batch, every argument array unchanged. -/
theorem run : θ_run defs (onTc (τ := τ) (main (F := Ideal))) ⟨m, fun _ => 0, ρ⟩ (fun r => ∀ c : Dev nD,
      r.2.mem ((c.tc : Thread nD τ).loc main_v0_0) = (fun i => outQ m c 0 ⟨(i 0).val, idx2_lt0 i⟩ : S65536x1.Idx → EReal)
      ∧ r.2.mem ((c.tc : Thread nD τ).loc main_v0_1) = (fun i => outQ m c 1 ⟨(i 0).val, idx2_lt0 i⟩ : S65536x1.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v0_0 (Pipeline.mem_restRefs_of main_v0_0 (by decide) (by decide))).trans (result0 m c),
      ((h c).2 main_v0_1 (Pipeline.mem_restRefs_of main_v0_1 (by decide) (by decide))).trans (result1 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩) (run_main m ρ)

end Cert.KernelIdeal.Hand

end
-- ==== Proof.RefBlock.lean ====
/-
  The reference's [2, 1024] block at an entry.

  The reference's body handles its 1024-row block in one piece and evaluates the PACKED network: the first layer
  h[j] = max(Σ_k s[q,k]·W0s[k,j] + Σ_k a[q,k]·W0a[k,j] + b[0,j], 0), the hidden layer over all 512 packed columns,
  and the last layer over all 512: entry (r, q) of the stored value is `TwinCritic.qPacked` of row q. Each matrix product
  started from the zero splat is a plain sum over the contracted coordinate, a broadcast bias row reads the row.
-/
import proofs.«121478_g2000502508351383_pallasbulk_1291_12_alg».proof.Proof.Gen.ReferenceIdeal.Frame
import proofs.«121478_g2000502508351383_pallasbulk_1291_12_alg».proof.Proof.LibDotOneAxis
import proofs.«121478_g2000502508351383_pallasbulk_1291_12_alg».proof.Proof.TwinSpec
import Idealize.ShloMosaic.Lib.Pipeline.Value
import Idealize.ShloMosaic.Lib.ValueIdx

noncomputable section

open scoped BigOperators
open Idealize.ShloMosaic Idealize.ShloMosaic.ValueIdx

namespace Cert.ReferenceIdeal.Hand

open Cert.ReferenceIdeal Cert.ReferenceIdeal.Gen Cert.TwinCritic

/-! ## The four matrix products at an entry -/

abbrev E1 : DotDims S1024x256 S256x512 S1024x512 := dot_S1024x256_S256x512_S1024x512_1_0_0_1_n_n
abbrev E2 : DotDims S1024x64 S64x512 S1024x512 := dot_S1024x64_S64x512_S1024x512_1_0_0_1_n_n
abbrev E3 : DotDims S1024x512 S512x512 S1024x512 := dot_S1024x512_S512x512_S1024x512_1_0_0_1_n_n
abbrev E4 : DotDims S512x2 S1024x512 S2x1024 := dot_S512x2_S1024x512_S2x1024_0_1_1_0_n_n

/-- state rows against W0s: (q, j) ↦ Σ_k s[q,k] · w[k,j]. -/
theorem state_dot (s : FVec Ideal S1024x256 .f32) (w : FVec Ideal S256x512 .f32) (q : Fin 1024) (j : Fin 512) :
    matmul E1 none s w (constant S1024x512 .f32 0x00000000#32) (ix2 q j) = ∑ k : Fin 256, s (ix2 q k) * w (ix2 k j) :=
  DotOneAxis.matmul_zero_apply E1 256 rfl rfl none s w (ix2 q j) (fun k => ix2 q k) (fun k => ix2 k j)
    (fun k => funext fun a => Fin.ext (by
      match a with
      | ⟨0, _⟩ => exact rfl
      | ⟨1, _⟩ => exact (DotDims.lhsIdx_val_of_single E1 (cl := 1) rfl _ _).trans (contrEquiv1_symm_val E1 256 rfl rfl k)))
    (fun k => funext fun a => Fin.ext (by
      match a with
      | ⟨0, _⟩ => exact (DotDims.rhsIdx_val_of_single E1 (cr := 0) rfl _ _).trans (contrEquiv1_symm_val E1 256 rfl rfl k)
      | ⟨1, _⟩ => exact rfl))

/-- action rows against W0a: (q, j) ↦ Σ_k a[q,k] · w[k,j]. -/
theorem action_dot (a : FVec Ideal S1024x64 .f32) (w : FVec Ideal S64x512 .f32) (q : Fin 1024) (j : Fin 512) :
    matmul E2 none a w (constant S1024x512 .f32 0x00000000#32) (ix2 q j) = ∑ k : Fin 64, a (ix2 q k) * w (ix2 k j) :=
  DotOneAxis.matmul_zero_apply E2 64 rfl rfl none a w (ix2 q j) (fun k => ix2 q k) (fun k => ix2 k j)
    (fun k => funext fun c => Fin.ext (by
      match c with
      | ⟨0, _⟩ => exact rfl
      | ⟨1, _⟩ => exact (DotDims.lhsIdx_val_of_single E2 (cl := 1) rfl _ _).trans (contrEquiv1_symm_val E2 64 rfl rfl k)))
    (fun k => funext fun c => Fin.ext (by
      match c with
      | ⟨0, _⟩ => exact (DotDims.rhsIdx_val_of_single E2 (cr := 0) rfl _ _).trans (contrEquiv1_symm_val E2 64 rfl rfl k)
      | ⟨1, _⟩ => exact rfl))

/-- the first layer against the packed hidden weight: (q, k) ↦ Σ_k' x[q,k'] · w[k',k]. -/
theorem hidden_dot (x : FVec Ideal S1024x512 .f32) (w : FVec Ideal S512x512 .f32) (q : Fin 1024) (k : Fin 512) :
    matmul E3 none x w (constant S1024x512 .f32 0x00000000#32) (ix2 q k) = ∑ k' : Fin 512, x (ix2 q k') * w (ix2 k' k) :=
  DotOneAxis.matmul_zero_apply E3 512 rfl rfl none x w (ix2 q k) (fun k' => ix2 q k') (fun k' => ix2 k' k)
    (fun k' => funext fun a => Fin.ext (by
      match a with
      | ⟨0, _⟩ => exact rfl
      | ⟨1, _⟩ => exact (DotDims.lhsIdx_val_of_single E3 (cl := 1) rfl _ _).trans (contrEquiv1_symm_val E3 512 rfl rfl k')))
    (fun k' => funext fun a => Fin.ext (by
      match a with
      | ⟨0, _⟩ => exact (DotDims.rhsIdx_val_of_single E3 (cr := 0) rfl _ _).trans (contrEquiv1_symm_val E3 512 rfl rfl k')
      | ⟨1, _⟩ => exact rfl))

/-- the packed last weight against the second hidden layer, the weight's LEADING axis against the layer's trailing one:
    (r, q) ↦ Σ_k w[k,r] · g[q,k]. -/
theorem last_dot (w : FVec Ideal S512x2 .f32) (g : FVec Ideal S1024x512 .f32) (r : Fin 2) (q : Fin 1024) :
    matmul E4 none w g (constant S2x1024 .f32 0x00000000#32) (ix2 r q) = ∑ k : Fin 512, w (ix2 k r) * g (ix2 q k) :=
  DotOneAxis.matmul_zero_apply E4 512 rfl rfl none w g (ix2 r q) (fun k => ix2 k r) (fun k => ix2 q k)
    (fun k => funext fun a => Fin.ext (by
      match a with
      | ⟨0, _⟩ => exact (DotDims.lhsIdx_val_of_single E4 (cl := 0) rfl _ _).trans (contrEquiv1_symm_val E4 512 rfl rfl k)
      | ⟨1, _⟩ => exact rfl))
    (fun k => funext fun a => Fin.ext (by
      match a with
      | ⟨0, _⟩ => exact rfl
      | ⟨1, _⟩ => exact (DotDims.rhsIdx_val_of_single E4 (cr := 1) rfl _ _).trans (contrEquiv1_symm_val E4 512 rfl rfl k)))

/-! ## Broadcast rows at an entry -/

/-- Row ρ of the biases broadcast down the block's rows. -/
theorem biasRow_apply (b : FVec Ideal S2x512 .f32) (ρ : ℕ) (hρ : ρ < 2) (hs : S2x512.Slices ![ρ, 0] S1x512) (q : Fin 1024)
    (j : Fin 512) :
    broadcastTo S1024x512 (extractStridedSlice S1x512 ![ρ, 0] b hs) broadcasts_S1x512_S1024x512 (ix2 q j)
      = b (ix2 ⟨ρ, hρ⟩ j) :=
  (broadcastTo_apply _ _ (ix2 q j) (ix2 0 j) (fun a => by match a with | ⟨0, _⟩ => rfl | ⟨1, _⟩ => rfl)).trans
    (extractStridedSlice_apply _ b hs (ix2 0 j) (ix2 ⟨ρ, hρ⟩ j)
      (fun a => by match a with | ⟨0, _⟩ => rfl | ⟨1, _⟩ => exact (Nat.zero_add _).symm))

/-- The last bias, a column, broadcast along the block's columns. -/
theorem lastBias_apply (bl : FVec Ideal S2x1 .f32) (r : Fin 2) (q : Fin 1024) :
    broadcastTo S2x1024 bl broadcasts_S2x1_S2x1024 (ix2 r q) = bl (ix2 r 0) :=
  broadcastTo_apply _ _ (ix2 r q) (ix2 r 0) (fun a => by match a with | ⟨0, _⟩ => rfl | ⟨1, _⟩ => rfl)

/-! ## The stored value at an entry -/

/-- Row q of the block's first layer, as a function of the packed column. -/
abbrev firstLayer (b : FVec Ideal S2x512 .f32) (s : FVec Ideal S1024x256 .f32) (w0s : FVec Ideal S256x512 .f32)
    (a : FVec Ideal S1024x64 .f32) (w0a : FVec Ideal S64x512 .f32) (q : Fin 1024) : Fin 512 → EReal :=
  layer0 (fun k => s (ix2 q k)) (fun k => a (ix2 q k)) (fun k c => w0s (ix2 k c)) (fun k c => w0a (ix2 k c))
    (fun c => b (ix2 0 c))

/-- Entry (r, q) of what the body stores: the packed network's output r on row q. -/
theorem stored_apply (b : FVec Ideal S2x512 .f32) (s : FVec Ideal S1024x256 .f32) (w0s : FVec Ideal S256x512 .f32)
    (a : FVec Ideal S1024x64 .f32) (w0a : FVec Ideal S64x512 .f32) (hd : FVec Ideal S512x512 .f32)
    (wl : FVec Ideal S512x2 .f32) (bl : FVec Ideal S2x1 .f32) (r : Fin 2) (q : Fin 1024) :
    k0_pay1 (F := Ideal) b s w0s a w0a hd wl bl (ix2 r q)
      = qPacked (firstLayer b s w0s a w0a q) (fun k' k => hd (ix2 k' k)) (fun c => b (ix2 1 c)) (fun k r => wl (ix2 k r))
          (fun r => bl (ix2 r 0)) r := by
  unfold k0_pay1 qPacked
  simp only [addf_apply]
  rw [lastBias_apply]
  refine congrArg (· + bl (ix2 r 0)) ?_
  refine (last_dot wl _ r q).trans ?_
  refine Finset.sum_congr rfl fun k _ => congrArg (wl (ix2 k r) * ·) ?_
  simp only [maximumf_apply, addf_apply, broadcast_apply]
  rw [hidden_dot, biasRow_apply b 1 (by omega)]
  refine congrArg₂ max (congrArg (· + b (ix2 1 k)) (Finset.sum_congr rfl fun k' _ => congrArg (· * hd (ix2 k' k)) ?_))
    Ideal.ofBits_zero_f32
  unfold firstLayer layer0
  simp only [maximumf_apply, addf_apply, broadcast_apply]
  rw [state_dot, action_dot, biasRow_apply b 0 (by omega)]
  exact congrArg (max _) Ideal.ofBits_zero_f32

/-! ## The block -/

theorem hz : (![0, 0] : Fin 2 → Nat) = fun _ => 0 := funext fun a => by fin_cases a <;> rfl

/-- The packed network's output r on row y of a block: the block's state rows x0 and action rows x1, the weights whole. -/
def blockP (x0 : Vec Ideal S1024x256 .f32) (x1 : Vec Ideal S1024x64 .f32) (x2 : Vec Ideal S256x512 .f32)
    (x3 : Vec Ideal S64x512 .f32) (x4 : Vec Ideal S512x512 .f32) (x5 : Vec Ideal S512x2 .f32) (x6 : Vec Ideal S2x512 .f32)
    (x7 : Vec Ideal S2x1 .f32) (r : Fin 2) (y : Fin 1024) : EReal :=
  qPacked (layer0 (fun k => x0 (ix2 y k)) (fun k => x1 (ix2 y k)) (fun k c => x2 (ix2 k c)) (fun k c => x3 (ix2 k c))
      (fun c => x6 (ix2 0 c)))
    (fun k' k => x4 (ix2 k' k)) (fun c => x6 (ix2 1 c)) (fun k r => x5 (ix2 k r)) (fun r => x7 (ix2 r 0)) r

/-- The block as a function of its index. -/
def blockG (x0 : Vec Ideal S1024x256 .f32) (x1 : Vec Ideal S1024x64 .f32) (x2 : Vec Ideal S256x512 .f32)
    (x3 : Vec Ideal S64x512 .f32) (x4 : Vec Ideal S512x512 .f32) (x5 : Vec Ideal S512x2 .f32) (x6 : Vec Ideal S2x512 .f32)
    (x7 : Vec Ideal S2x1 .f32) : S2x1024.Idx → EReal :=
  fun j => blockP x0 x1 x2 x3 x4 x5 x6 x7 ⟨(j 0).val, idx2_lt0 j⟩ ⟨(j 1).val, idx2_lt1 j⟩

/-- What the body leaves in the output's staging buffer: its one store covers the buffer, and every load is of a whole buffer. -/
theorem block_eq (x0 : Vec Ideal S1024x256 .f32) (x1 : Vec Ideal S1024x64 .f32) (x2 : Vec Ideal S256x512 .f32)
    (x3 : Vec Ideal S64x512 .f32) (x4 : Vec Ideal S512x512 .f32) (x5 : Vec Ideal S512x2 .f32) (x6 : Vec Ideal S2x512 .f32)
    (x7 : Vec Ideal S2x1 .f32) :
    out0_8 (F := Ideal) x0 x1 x2 x3 x4 x5 x6 x7 = blockG x0 x1 x2 x3 x4 x5 x6 x7 := by
  unfold out0_8
  rw [View.canon_unit_zero hz]
  simp only [View.ld_unit_zero (S := S2x512) hz, View.ld_unit_zero (S := S1024x256) hz, View.ld_unit_zero (S := S256x512) hz,
    View.ld_unit_zero (S := S1024x64) hz, View.ld_unit_zero (S := S64x512) hz, View.ld_unit_zero (S := S512x512) hz,
    View.ld_unit_zero (S := S512x2) hz, View.ld_unit_zero (S := S2x1) hz]
  funext j
  obtain ⟨r, q, rfl⟩ : ∃ (r : Fin 2) (q : Fin 1024), j = ix2 r q := ⟨j 0, j 1, eq_ix2 j⟩
  exact stored_apply x6 x0 x2 x1 x3 x4 x5 x7 r q

end Cert.ReferenceIdeal.Hand

end
-- ==== Proof.RefArray.lean ====
/-
  The reference's output array after the run, and the two results.

  The region finds every array as launched. Window 0's block at point t is rows 1024·t .. of the state, window 1's the same
  rows of the action, the weight windows' blocks are the weights whole, and the output's block is columns 1024·t .. of the
  [2, 65536] output. So point t writes back the block of (r, y) ↦ `criticPacked … r y` (the packed network), the sixty-four
  blocks tile the output, and the output array ends holding that function. The lines after the region cut its two rows out
  and lay each as a [65536, 1] column.
-/
import proofs.«121478_g2000502508351383_pallasbulk_1291_12_alg».proof.Proof.RefBlock
import Idealize.ShloMosaic.Lib.StableHlo.Run
import Idealize.ShloMosaic.Lib.Tactic

noncomputable section

open scoped BigOperators
open Idealize.ShloMosaic Idealize.ShloMosaic.ValueIdx Idealize.ShloMosaic.TcCoe Idealize.SL.Sem
open Idealize.ShloMosaic.Pipeline (Dat)

namespace Cert.ReferenceIdeal.Hand

open Cert.ReferenceIdeal Cert.ReferenceIdeal.Gen Cert.TwinCritic

variable (m : (ℓ : Loc nD τ sig) → Buf (Elt Ideal) ℓ) (ρ : Dev nD → PrngReg)

/-! ## Where each window's block sits -/

/-- The index maps over the sixty-four points: the state's and the action's block index is (t, 0), the output's (0, t),
    every weight's (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = t.val :=
  (by decide +kernel : ∀ t : Fin grid0.N, _)

/-- Batch row of row y of block t. -/
def rowOf (t : Fin cfg0.N) (y : Fin 1024) : Fin 65536 :=
  ⟨t.val * 1024 + y.val, by have h := t.isLt; have : cfg0.N = 64 := N_0; omega⟩

/-- Row y of the state's block at point t is batch row 1024·t + y. -/
theorem iblk0_apply (c : Dev nD) (t : Fin cfg0.N) (y : Fin 1024) (k : Fin 256) :
    (iblk m c 0 t : Vec Ideal S1024x256 .f32) (ix2 y k)
      = (m ((c : Thread nD τ).loc main_arg0) : S65536x256.Idx → EReal) (ix2 (rowOf t y) k) := by
  obtain ⟨e00, e01, -⟩ := idx_facts t
  unfold iblk
  rw [View.read_apply]
  show V m c main_arg0 _ = m (c.tc.loc main_arg0) _
  rw [V_main_arg0]
  refine congrArg _ (funext fun a => Fin.ext ?_)
  match a with
  | ⟨0, _⟩ => show win0_0.index t (0 : Fin 2) * 1024 + 1 * y.val = t.val * 1024 + y.val; rw [e00]; omega
  | ⟨1, _⟩ => show win0_0.index t (1 : Fin 2) * 256 + 1 * k.val = k.val; rw [e01]; omega

/-- Row y of the action's block at point t is batch row 1024·t + y. -/
theorem iblk1_apply (c : Dev nD) (t : Fin cfg0.N) (y : Fin 1024) (k : Fin 64) :
    (iblk m c 1 t : Vec Ideal S1024x64 .f32) (ix2 y k)
      = (m ((c : Thread nD τ).loc main_arg1) : S65536x64.Idx → EReal) (ix2 (rowOf t y) k) := by
  obtain ⟨-, -, e10, e11, -⟩ := idx_facts t
  unfold iblk
  rw [View.read_apply]
  show V m c main_arg1 _ = m (c.tc.loc main_arg1) _
  rw [V_main_arg1]
  refine congrArg _ (funext fun a => Fin.ext ?_)
  match a with
  | ⟨0, _⟩ => show win0_1.index t (0 : Fin 2) * 1024 + 1 * y.val = t.val * 1024 + y.val; rw [e10]; omega
  | ⟨1, _⟩ => show win0_1.index t (1 : Fin 2) * 64 + 1 * k.val = k.val; rw [e11]; omega

theorem iblk2_apply (c : Dev nD) (t : Fin cfg0.N) (i : Fin 256) (j : Fin 512) :
    (iblk m c 2 t : Vec Ideal S256x512 .f32) (ix2 i j) = (m ((c : Thread nD τ).loc main_arg2) : S256x512.Idx → EReal) (ix2 i j) := by
  have ef := idx_facts t
  unfold iblk
  rw [View.read_apply]
  show V m c main_arg2 _ = m (c.tc.loc main_arg2) _
  rw [V_main_arg2]
  refine congrArg _ (funext fun a => Fin.ext ?_)
  match a with
  | ⟨0, _⟩ => show win0_2.index t (0 : Fin 2) * 256 + 1 * i.val = i.val; omega
  | ⟨1, _⟩ => show win0_2.index t (1 : Fin 2) * 512 + 1 * j.val = j.val; omega

theorem iblk3_apply (c : Dev nD) (t : Fin cfg0.N) (i : Fin 64) (j : Fin 512) :
    (iblk m c 3 t : Vec Ideal S64x512 .f32) (ix2 i j) = (m ((c : Thread nD τ).loc main_arg3) : S64x512.Idx → EReal) (ix2 i j) := by
  have ef := idx_facts t
  unfold iblk
  rw [View.read_apply]
  show V m c main_arg3 _ = m (c.tc.loc main_arg3) _
  rw [V_main_arg3]
  refine congrArg _ (funext fun a => Fin.ext ?_)
  match a with
  | ⟨0, _⟩ => show win0_3.index t (0 : Fin 2) * 64 + 1 * i.val = i.val; omega
  | ⟨1, _⟩ => show win0_3.index t (1 : Fin 2) * 512 + 1 * j.val = j.val; omega

theorem iblk4_apply (c : Dev nD) (t : Fin cfg0.N) (i : Fin 512) (j : Fin 512) :
    (iblk m c 4 t : Vec Ideal S512x512 .f32) (ix2 i j) = (m ((c : Thread nD τ).loc main_arg4) : S512x512.Idx → EReal) (ix2 i j) := by
  have ef := idx_facts t
  unfold iblk
  rw [View.read_apply]
  show V m c main_arg4 _ = m (c.tc.loc main_arg4) _
  rw [V_main_arg4]
  refine congrArg _ (funext fun a => Fin.ext ?_)
  match a with
  | ⟨0, _⟩ => show win0_4.index t (0 : Fin 2) * 512 + 1 * i.val = i.val; omega
  | ⟨1, _⟩ => show win0_4.index t (1 : Fin 2) * 512 + 1 * j.val = j.val; omega

theorem iblk5_apply (c : Dev nD) (t : Fin cfg0.N) (i : Fin 512) (j : Fin 2) :
    (iblk m c 5 t : Vec Ideal S512x2 .f32) (ix2 i j) = (m ((c : Thread nD τ).loc main_arg5) : S512x2.Idx → EReal) (ix2 i j) := by
  have ef := idx_facts t
  unfold iblk
  rw [View.read_apply]
  show V m c main_arg5 _ = m (c.tc.loc main_arg5) _
  rw [V_main_arg5]
  refine congrArg _ (funext fun a => Fin.ext ?_)
  match a with
  | ⟨0, _⟩ => show win0_5.index t (0 : Fin 2) * 512 + 1 * i.val = i.val; omega
  | ⟨1, _⟩ => show win0_5.index t (1 : Fin 2) * 2 + 1 * j.val = j.val; omega

theorem iblk6_apply (c : Dev nD) (t : Fin cfg0.N) (i : Fin 2) (j : Fin 512) :
    (iblk m c 6 t : Vec Ideal S2x512 .f32) (ix2 i j) = (m ((c : Thread nD τ).loc main_arg6) : S2x512.Idx → EReal) (ix2 i j) := by
  have ef := idx_facts t
  unfold iblk
  rw [View.read_apply]
  show V m c main_arg6 _ = m (c.tc.loc main_arg6) _
  rw [V_main_arg6]
  refine congrArg _ (funext fun a => Fin.ext ?_)
  match a with
  | ⟨0, _⟩ => show win0_6.index t (0 : Fin 2) * 2 + 1 * i.val = i.val; omega
  | ⟨1, _⟩ => show win0_6.index t (1 : Fin 2) * 512 + 1 * j.val = j.val; omega

theorem iblk7_apply (c : Dev nD) (t : Fin cfg0.N) (i : Fin 2) (j : Fin 1) :
    (iblk m c 7 t : Vec Ideal S2x1 .f32) (ix2 i j) = (m ((c : Thread nD τ).loc main_arg7) : S2x1.Idx → EReal) (ix2 i j) := by
  have ef := idx_facts t
  unfold iblk
  rw [View.read_apply]
  show V m c main_arg7 _ = m (c.tc.loc main_arg7) _
  rw [V_main_arg7]
  refine congrArg _ (funext fun a => Fin.ext ?_)
  match a with
  | ⟨0, _⟩ => show win0_7.index t (0 : Fin 2) * 2 + 1 * i.val = i.val; omega
  | ⟨1, _⟩ => show win0_7.index t (1 : Fin 2) * 1 + 1 * j.val = j.val; omega

/-! ## The output array -/

/-- The arrays as launched, as functions of their coordinates. -/
abbrev stateAt (c : Dev nD) : Fin 65536 → Fin 256 → EReal :=
  fun y k => (m ((c : Thread nD τ).loc main_arg0) : S65536x256.Idx → EReal) (ix2 y k)
abbrev actionAt (c : Dev nD) : Fin 65536 → Fin 64 → EReal :=
  fun y k => (m ((c : Thread nD τ).loc main_arg1) : S65536x64.Idx → EReal) (ix2 y k)
abbrev w0sAt (c : Dev nD) : Fin 256 → Fin 512 → EReal :=
  fun k j => (m ((c : Thread nD τ).loc main_arg2) : S256x512.Idx → EReal) (ix2 k j)
abbrev w0aAt (c : Dev nD) : Fin 64 → Fin 512 → EReal :=
  fun k j => (m ((c : Thread nD τ).loc main_arg3) : S64x512.Idx → EReal) (ix2 k j)
abbrev hiddenAt (c : Dev nD) : Fin 512 → Fin 512 → EReal :=
  fun k' k => (m ((c : Thread nD τ).loc main_arg4) : S512x512.Idx → EReal) (ix2 k' k)
abbrev lastAt (c : Dev nD) : Fin 512 → Fin 2 → EReal :=
  fun k r => (m ((c : Thread nD τ).loc main_arg5) : S512x2.Idx → EReal) (ix2 k r)
abbrev biasAt (c : Dev nD) : Fin 2 → Fin 512 → EReal :=
  fun r j => (m ((c : Thread nD τ).loc main_arg6) : S2x512.Idx → EReal) (ix2 r j)
abbrev lastBiasAt (c : Dev nD) : Fin 2 → EReal :=
  fun r => (m ((c : Thread nD τ).loc main_arg7) : S2x1.Idx → EReal) (ix2 r 0)

/-- Output r of batch row y from the arrays as launched: the packed network evaluated whole. -/
def outP (c : Dev nD) (r : Fin 2) (y : Fin 65536) : EReal :=
  criticPacked (stateAt m c) (actionAt m c) (w0sAt m c) (w0aAt m c) (hiddenAt m c) (lastAt m c) (biasAt m c) (lastBiasAt m c) r y

/-- The [2, 65536] output array: entry (r, y) is output r of batch row y. -/
def outArr (c : Dev nD) : S2x65536.Idx → EReal :=
  fun i => outP m c ⟨(i 0).val, idx2_lt0 i⟩ ⟨(i 1).val, idx2_lt1 i⟩

/-- The packed network on a block's row y is `criticPacked` on a batch row Y, as soon as the block's arrays are the
    batch's at that row. -/
theorem blockP_eq_criticPacked (x0 : Vec Ideal S1024x256 .f32) (x1 : Vec Ideal S1024x64 .f32) (x2 : Vec Ideal S256x512 .f32)
    (x3 : Vec Ideal S64x512 .f32) (x4 : Vec Ideal S512x512 .f32) (x5 : Vec Ideal S512x2 .f32) (x6 : Vec Ideal S2x512 .f32)
    (x7 : Vec Ideal S2x1 .f32)
    (S : Fin 65536 → Fin 256 → EReal) (A : Fin 65536 → Fin 64 → EReal) (W0S : Fin 256 → Fin 512 → EReal)
    (W0A : Fin 64 → Fin 512 → EReal) (HD : Fin 512 → Fin 512 → EReal) (WL : Fin 512 → Fin 2 → EReal)
    (B : Fin 2 → Fin 512 → EReal) (BL : Fin 2 → EReal) (y : Fin 1024) (Y : Fin 65536)
    (h0 : ∀ k, x0 (ix2 y k) = S Y k) (h1 : ∀ k, x1 (ix2 y k) = A Y k) (h2 : ∀ k j, x2 (ix2 k j) = W0S k j)
    (h3 : ∀ k j, x3 (ix2 k j) = W0A k j) (h4 : ∀ k' k, x4 (ix2 k' k) = HD k' k) (h5 : ∀ k r, x5 (ix2 k r) = WL k r)
    (h6 : ∀ r j, x6 (ix2 r j) = B r j) (h7 : ∀ r, x7 (ix2 r 0) = BL r) (r : Fin 2) :
    blockP x0 x1 x2 x3 x4 x5 x6 x7 r y = criticPacked S A W0S W0A HD WL B BL r Y := by
  unfold blockP criticPacked
  rw [show (fun k => x0 (ix2 y k)) = S Y from funext h0, show (fun k => x1 (ix2 y k)) = A Y from funext h1,
    show (fun k j => x2 (ix2 k j)) = W0S from funext fun k => funext (h2 k),
    show (fun k j => x3 (ix2 k j)) = W0A from funext fun k => funext (h3 k),
    show (fun k' k => x4 (ix2 k' k)) = HD from funext fun k' => funext (h4 k'),
    show (fun k r => x5 (ix2 k r)) = WL from funext fun k => funext (h5 k),
    show (fun j => x6 (ix2 0 j)) = B 0 from funext (h6 0), show (fun j => x6 (ix2 1 j)) = B 1 from funext (h6 1),
    show (fun r => x7 (ix2 r 0)) = BL from funext h7]

/-- WHAT POINT t WRITES BACK is block t of the output array. -/
theorem flushed_eq (c : Dev nD) (t : Fin cfg0.N) :
    (dats m 0 c).flushed 8 t = ((cfg0.win 8).blk t).view.read (Elt Ideal) (outArr m c) := by
  show (cfg0.win 8).cut (grid0.coords t) ((dats m 0 c).after 8 t) = _
  rw [after0_8, block_eq (iblk m c 0 t) (iblk m c 1 t) (iblk m c 2 t) (iblk m c 3 t) (iblk m c 4 t) (iblk m c 5 t)
    (iblk m c 6 t) (iblk m c 7 t)]
  obtain ⟨-, -, -, -, -, -, -, -, -, -, -, -, -, -, -, -, e80, e81⟩ := idx_facts t
  funext j
  show blockP (iblk m c 0 t) (iblk m c 1 t) (iblk m c 2 t) (iblk m c 3 t) (iblk m c 4 t) (iblk m c 5 t) (iblk m c 6 t)
      (iblk m c 7 t) ⟨(j 0).val, idx2_lt0 j⟩ ⟨(j 1).val, idx2_lt1 j⟩
    = outArr m c (((cfg0.win 8).blk t).view.emb j)
  refine (blockP_eq_criticPacked _ _ _ _ _ _ _ _ (stateAt m c) (actionAt m c) (w0sAt m c) (w0aAt m c) (hiddenAt m c) (lastAt m c)
    (biasAt m c) (lastBiasAt m c) ⟨(j 1).val, idx2_lt1 j⟩ (rowOf t ⟨(j 1).val, idx2_lt1 j⟩)
    (iblk0_apply m c t _) (iblk1_apply m c t _) (iblk2_apply m c t) (iblk3_apply m c t) (iblk4_apply m c t)
    (iblk5_apply m c t) (iblk6_apply m c t) (fun r => iblk7_apply m c t r 0) ⟨(j 0).val, idx2_lt0 j⟩).trans ?_
  refine congrArg₂ (outP m c) (Fin.ext ?_) (Fin.ext ?_)
  · show (j 0).val = win0_8.index t (0 : Fin 2) * 2 + 1 * (j 0).val; rw [e80]; omega
  · show t.val * 1024 + (j 1).val = win0_8.index t (1 : Fin 2) * 1024 + 1 * (j 1).val; rw [e81]; omega

/-- An index of the output array is in point t's block iff each coordinate is in the block's range on its axis. -/
theorem mem_blk (t : Fin cfg0.N) (i : S2x65536.Idx) :
    i ∈ ((cfg0.win 8).blk t).view.set
      ↔ ∀ a : Fin 2, win0_8.index t a * S2x1024.size a ≤ (i a).val ∧ (i a).val < win0_8.index t a * S2x1024.size a + S2x1024.size a := by
  show i ∈ ((View.whole main_call0_v0).slice (win0_8.rect t)).set ↔ _
  rw [View.set_slice_whole, Rect.mem_set_unit]
  exact Iff.rfl

/-- THE OUTPUT ARRAY after the run: column y lies in the block of point y / 1024, so the sixty-four blocks cover it. -/
theorem final (c : Dev nD) : (dats m 0 c).arrAt 8 cfg0.N = outArr m c :=
  (dats m 0 c).arrAt_eq_of_cover 8 (outArr m c) (fun t _ => flushed_eq m c t) fun i => by
    have hN : cfg0.N = 64 := N_0
    have hi0 : (i 0).val < 2 := idx2_lt0 i
    have hi1 : (i 1).val < 65536 := idx2_lt1 i
    let t : Fin cfg0.N := ⟨(i 1).val / 1024, by omega⟩
    obtain ⟨-, -, -, -, -, -, -, -, -, -, -, -, -, -, -, -, e80, e81⟩ := idx_facts t
    have ht : t.val = (i 1).val / 1024 := rfl
    refine ⟨t, flush0_8 t, ?_⟩
    rw [mem_blk]
    intro a
    match a with
    | ⟨0, _⟩ => show win0_8.index t (0 : Fin 2) * 2 ≤ (i 0).val ∧ (i 0).val < win0_8.index t (0 : Fin 2) * 2 + 2; omega
    | ⟨1, _⟩ => show win0_8.index t (1 : Fin 2) * 1024 ≤ (i 1).val ∧ (i 1).val < win0_8.index t (1 : Fin 2) * 1024 + 1024; omega

/-! ## The two results and the run -/

/-- Row 0 of the output array laid as a column: @main's result main_v0_0. -/
theorem result0 (c : Dev nD) :
    Pipeline.afterTail₀ cfgs (dats m) 0 (V0 m) [hostOps1] c main_v0_0
      = (fun i => outP m c 0 ⟨(i 0).val, idx2_lt0 i⟩ : S65536x1.Idx → EReal) := by
  unfold Pipeline.afterTail₀
  show StableHlo.after hostOps1 _ (Proc.devRef .tc main_v0_0) = _
  after_results
  show shapeCast S65536x1 (shapeCast S65536 (extractStridedSlice S1x65536 ![0, 0]
      (Pipeline.withArrays spec0 c (V0 m c) (fun w => (dats m 0 c).arrAt w cfg0.N) (Proc.devRef .tc (Pipeline.arrRef spec0 8)) :
        S2x65536.Idx → EReal) slices_S2x65536_S1x65536_0_0) shapeCasts_S1x65536_S65536) shapeCasts_S65536_S65536x1 = _
  rw [(Pipeline.withArrays_arr spec0 launch0.win.arr_inj c (V0 m c) (fun w => (dats m 0 c).arrAt w cfg0.N) 8).trans (final m c)]
  funext i
  obtain ⟨y, z, rfl⟩ : ∃ (y : Fin 65536) (z : Fin 1), i = ix2 y z := ⟨i 0, i 1, eq_ix2 i⟩
  refine (shapeCast_apply _ _ (ix2 y z) (ix1 y) ?_).trans ((shapeCast_apply _ _ (ix1 y) (ix2 (0 : Fin 1) y) ?_).trans
    ((extractStridedSlice_apply _ (outArr m c) _ (ix2 (0 : Fin 1) y) (ix2 (0 : Fin 2) y) (fun a => ?_)).trans ?_))
  · rw [Shape.rowMajor_val_one, Shape.rowMajor_val_two]
    show y.val = y.val * 1 + z.val
    have := z.isLt; omega
  · rw [Shape.rowMajor_val_two, Shape.rowMajor_val_one]
    show 0 * 65536 + y.val = y.val
    omega
  · match a with
    | ⟨0, _⟩ => rfl
    | ⟨1, _⟩ => exact (Nat.zero_add _).symm
  · rfl

/-- Row 1 of the output array laid as a column: @main's result main_v0_1. -/
theorem result1 (c : Dev nD) :
    Pipeline.afterTail₀ cfgs (dats m) 0 (V0 m) [hostOps1] c main_v0_1
      = (fun i => outP m c 1 ⟨(i 0).val, idx2_lt0 i⟩ : S65536x1.Idx → EReal) := by
  unfold Pipeline.afterTail₀
  show StableHlo.after hostOps1 _ (Proc.devRef .tc main_v0_1) = _
  after_results
  show shapeCast S65536x1 (shapeCast S65536 (extractStridedSlice S1x65536 ![1, 0]
      (Pipeline.withArrays spec0 c (V0 m c) (fun w => (dats m 0 c).arrAt w cfg0.N) (Proc.devRef .tc (Pipeline.arrRef spec0 8)) :
        S2x65536.Idx → EReal) slices_S2x65536_S1x65536_1_0) shapeCasts_S1x65536_S65536) shapeCasts_S65536_S65536x1 = _
  rw [(Pipeline.withArrays_arr spec0 launch0.win.arr_inj c (V0 m c) (fun w => (dats m 0 c).arrAt w cfg0.N) 8).trans (final m c)]
  funext i
  obtain ⟨y, z, rfl⟩ : ∃ (y : Fin 65536) (z : Fin 1), i = ix2 y z := ⟨i 0, i 1, eq_ix2 i⟩
  refine (shapeCast_apply _ _ (ix2 y z) (ix1 y) ?_).trans ((shapeCast_apply _ _ (ix1 y) (ix2 (0 : Fin 1) y) ?_).trans
    ((extractStridedSlice_apply _ (outArr m c) _ (ix2 (0 : Fin 1) y) (ix2 (1 : Fin 2) y) (fun a => ?_)).trans ?_))
  · rw [Shape.rowMajor_val_one, Shape.rowMajor_val_two]
    show y.val = y.val * 1 + z.val
    have := z.isLt; omega
  · rw [Shape.rowMajor_val_two, Shape.rowMajor_val_one]
    show 0 * 65536 + y.val = y.val
    omega
  · match a with
    | ⟨0, _⟩ => rfl
    | ⟨1, _⟩ => exact (Nat.zero_add _).symm
  · rfl

/-- The run, read: the two results at the packed network's outputs over the batch, every argument array unchanged. -/
theorem run : θ_run defs (onTc (τ := τ) (main (F := Ideal))) ⟨m, fun _ => 0, ρ⟩ (fun r => ∀ c : Dev nD,
      r.2.mem ((c.tc : Thread nD τ).loc main_v0_0) = (fun i => outP m c 0 ⟨(i 0).val, idx2_lt0 i⟩ : S65536x1.Idx → EReal)
      ∧ r.2.mem ((c.tc : Thread nD τ).loc main_v0_1) = (fun i => outP m c 1 ⟨(i 0).val, idx2_lt0 i⟩ : S65536x1.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v0_0 (Pipeline.mem_restRefs_of main_v0_0 (by decide) (by decide))).trans (result0 m c),
      ((h c).2 main_v0_1 (Pipeline.mem_restRefs_of main_v0_1 (by decide) (by decide))).trans (result1 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩) (run_main m ρ)

end Cert.ReferenceIdeal.Hand

end
-- ==== Proof.PreBlockDiag.lean ====
/-
  The precondition's four block-diagonal conjuncts, decoded.

  Beside the finiteness of every input the precondition states that four slices are all zero: rows 0..255 against columns
  256..511 of the hidden weight, rows 256..511 against columns 0..255 of it, rows 0..255 of column 1 of the last weight and
  rows 256..511 of its column 0. Each is printed as: the slice compared for equality with the zero splat, the comparison's bits
  folded by `and`, and the folds joined by `and`. On the extended reals the comparison's bit is 1 exactly at equal values,
  a fold of `and` is 1 exactly when every bit is, and a slice reads its operand shifted by the offsets: so the four
  conjuncts say that the packed weights are block diagonal (`TwinCritic.BlockDiag`).
-/
import proofs.«121478_g2000502508351383_pallasbulk_1291_12_alg».proof.Proof.Gen.Pre_finite_inputs
import proofs.«121478_g2000502508351383_pallasbulk_1291_12_alg».proof.Proof.TwinSpec
import Idealize.ShloMosaic.Lib.ReduceAll
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.PreFacts

open Cert.Pre_finite_inputs Cert.TwinCritic

variable [Facts]

instance : Subsingleton S_.Idx := ⟨fun a b => funext fun d => d.elim0⟩

/-- On the extended reals the equality comparison's bit is 1 only at equal values. -/
theorem eq_of_cmp_oeq {x y : EReal} (h : Ideal.cmp .oeq x y = 1#1) : x = y := by
  unfold Ideal.cmp at h
  by_contra hne
  simp [hne] at h

/-- A value all of whose entries compare equal to the zero splat, the comparison folded by `and`, is zero at every entry. -/
theorem zero_of_all_eq {S : Shape} {axes : List (Fin S.rank)} (x : FVec Ideal S .f32) (hb : S_.BroadcastsInDim S ![])
    (hr : S.ReducesTo axes S_) (hu : 0 < S_.numel)
    (e : Host.reduce IntOp.andi (cmpf .oeq x (broadcastInDim S ![] hb (constant S_ .f32 0x00000000#32))) (constantI S_ 1 1#1)
      hr hu ix0 = 1#1) (i : S.Idx) : x i = 0 := by
  have h1 := Host.reduce_andi_all _ _ hr hu ix0 e i
  have h2 : x i = broadcastInDim S ![] hb (constant (F := Ideal) S_ .f32 0x00000000#32) i := eq_of_cmp_oeq h1
  rw [h2]
  exact Ideal.ofBits_zero_f32

/-- The precondition makes the hidden weight and the last weight block diagonal. -/
theorem blockDiag_of_pre (A0 : FVec Ideal S65536x256 .f32) (A1 : FVec Ideal S65536x64 .f32) (A2 : FVec Ideal S256x512 .f32)
    (A3 : FVec Ideal S64x512 .f32) (A4 : FVec Ideal S512x512 .f32) (A5 : FVec Ideal S512x2 .f32) (A6 : FVec Ideal S2x512 .f32)
    (A7 : FVec Ideal S2x1 .f32) (h : fn (F := Ideal) A0 A1 A2 A3 A4 A5 A6 A7 = fun _ => 1#1) :
    BlockDiag (fun k' k => A4 (ix2 k' k)) (fun k r => A5 (ix2 k r)) := by
  have h0 := congrFun h ix0
  simp only [fn, fn_part1, fn_part2, fn_part3] at h0
  obtain ⟨h1, z4⟩ := IntOp.andi_eq_one.mp h0
  obtain ⟨h2, z3⟩ := IntOp.andi_eq_one.mp h1
  obtain ⟨h3, z2⟩ := IntOp.andi_eq_one.mp h2
  obtain ⟨-, z1⟩ := IntOp.andi_eq_one.mp h3
  refine ⟨fun k' k => ?_, fun k' k => ?_, fun k => ?_, fun k => ?_⟩
  · show A4 (ix2 (col 0 (by omega) k') (col 256 (by omega) k)) = 0
    exact (extractStridedSlice_apply _ A4 _ (ix2 k' k) (ix2 (col 0 (by omega) k') (col 256 (by omega) k))
      (fun a => by match a with | ⟨0, _⟩ => rfl | ⟨1, _⟩ => rfl)).symm.trans (zero_of_all_eq _ _ _ _ z1 (ix2 k' k))
  · show A4 (ix2 (col 256 (by omega) k') (col 0 (by omega) k)) = 0
    exact (extractStridedSlice_apply _ A4 _ (ix2 k' k) (ix2 (col 256 (by omega) k') (col 0 (by omega) k))
      (fun a => by match a with | ⟨0, _⟩ => rfl | ⟨1, _⟩ => rfl)).symm.trans (zero_of_all_eq _ _ _ _ z2 (ix2 k' k))
  · show A5 (ix2 (col 0 (by omega) k) 1) = 0
    exact (extractStridedSlice_apply _ A5 _ (ix2 k (0 : Fin 1)) (ix2 (col 0 (by omega) k) (1 : Fin 2))
      (fun a => by match a with | ⟨0, _⟩ => rfl | ⟨1, _⟩ => rfl)).symm.trans (zero_of_all_eq _ _ _ _ z3 (ix2 k 0))
  · show A5 (ix2 (col 256 (by omega) k) 0) = 0
    exact (extractStridedSlice_apply _ A5 _ (ix2 k (0 : Fin 1)) (ix2 (col 256 (by omega) k) (0 : Fin 2))
      (fun a => by match a with | ⟨0, _⟩ => rfl | ⟨1, _⟩ => rfl)).symm.trans (zero_of_all_eq _ _ _ _ z4 (ix2 k 0))

end Cert.PreFacts

end
-- ==== Proof.lean ====
/-
  The twin critic: the kernel against its reference, over the extended reals.

  Both programs compute, for each of the 65536 batch rows, the first layer h = max(s·W0s + a·W0a + b0, 0) shared by two
  networks, and then two outputs. The reference evaluates the two networks PACKED: one hidden product over all 512 packed
  columns and one last product over all 512. The kernel evaluates them SEPARATELY, each on its own 256 columns, using only the
  two diagonal blocks of the hidden weight and of the last weight. Under the precondition — every input finite, and the
  off-diagonal blocks of those two weights exactly zero — the two agree: a sum over the 512 columns is the sum over the two
  halves, and in the foreign half every product has a zero factor (x·0 = 0 on the extended reals, whatever x).

  The pieces: `TwinSpec` states both forms and proves them equal under the block-diagonal hypothesis; `KernelChunk`,
  `KernelBlock`, `KernelArray` read the kernel's run (a chunk of 1024 rows, the block of four chunks, the output array of
  sixteen blocks, the two result columns) as the separate form; `RefBlock`, `RefArray` read the reference's run (a block of
  1024 rows, sixty-four blocks, the two result columns) as the packed form; `PreBlockDiag` decodes the precondition. The
  three frames are the generated ones, and the kernel's idealization rewrote nothing.
-/
import proofs.«121478_g2000502508351383_pallasbulk_1291_12_alg».proof.Defs
import proofs.«121478_g2000502508351383_pallasbulk_1291_12_alg».proof.Proof.Gen.Kernel
import proofs.«121478_g2000502508351383_pallasbulk_1291_12_alg».proof.Proof.Gen.Kernel.Frame
import proofs.«121478_g2000502508351383_pallasbulk_1291_12_alg».proof.Proof.Gen.KernelIdeal
import proofs.«121478_g2000502508351383_pallasbulk_1291_12_alg».proof.Proof.Gen.KernelIdeal.Frame
import proofs.«121478_g2000502508351383_pallasbulk_1291_12_alg».proof.Proof.Gen.ReferenceIdeal
import proofs.«121478_g2000502508351383_pallasbulk_1291_12_alg».proof.Proof.Gen.ReferenceIdeal.Frame
import proofs.«121478_g2000502508351383_pallasbulk_1291_12_alg».proof.Proof.Gen.Pre_finite_inputs
import proofs.«121478_g2000502508351383_pallasbulk_1291_12_alg».proof.Proof.KernelArray
import proofs.«121478_g2000502508351383_pallasbulk_1291_12_alg».proof.Proof.RefArray
import proofs.«121478_g2000502508351383_pallasbulk_1291_12_alg».proof.Proof.PreBlockDiag
import Idealize.ShloMosaic.Adequacy
import Idealize.ShloMosaic.Init

noncomputable section

namespace Cert.Proof

open Idealize.ShloMosaic Idealize.ShloMosaic.ValueIdx Idealize.SL.Sem Cert.TwinCritic

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ => Cert.ReferenceIdeal.Gen.frame m ρ

/-- The ideal pass rewrote nothing: the idealized kernel is the kernel's own text read over the extended reals. -/
theorem preserves : Cert.preserves_Kernel_KernelIdeal := trivial

/-- From memories agreeing on the arguments the kernel's two results are the two networks' outputs, each on its own half, and
    the reference's are the packed network's; the precondition makes the packed weights block diagonal, under which the two are
    one function of the arguments. -/
theorem algebraic : Cert.algebraic_KernelIdeal_ReferenceIdeal := by
  intro m ρ m' ρ' hpre hagree
  refine ⟨fun c => (fun i => Cert.KernelIdeal.Hand.outQ m c 0 ⟨(i 0).val, idx2_lt0 i⟩ : Cert.KernelIdeal.S65536x1.Idx → EReal),
    fun c => (fun i => Cert.KernelIdeal.Hand.outQ m c 1 ⟨(i 0).val, idx2_lt0 i⟩ : Cert.KernelIdeal.S65536x1.Idx → EReal),
    Cert.KernelIdeal.Hand.run m ρ, ?_⟩
  refine (θ_run Cert.ReferenceIdeal.defs _ _).mono (fun r h c => ?_) (Cert.ReferenceIdeal.Hand.run m' ρ')
  obtain ⟨h0, h1, hargs⟩ := h c
  have H : BlockDiag (Cert.KernelIdeal.Hand.hiddenAt m c) (Cert.KernelIdeal.Hand.lastAt m c) :=
    Cert.PreFacts.blockDiag_of_pre _ _ _ _ _ _ _ _ (hpre c)
  obtain ⟨a0, a1, a2, a3, a4, a5, a6, a7⟩ := hagree c
  have e0 : Cert.ReferenceIdeal.Hand.stateAt m' c = Cert.KernelIdeal.Hand.stateAt m c :=
    funext fun y => funext fun k => congrFun a0 (ix2 y k)
  have e1 : Cert.ReferenceIdeal.Hand.actionAt m' c = Cert.KernelIdeal.Hand.actionAt m c :=
    funext fun y => funext fun k => congrFun a1 (ix2 y k)
  have e2 : Cert.ReferenceIdeal.Hand.w0sAt m' c = Cert.KernelIdeal.Hand.w0sAt m c :=
    funext fun k => funext fun j => congrFun a2 (ix2 k j)
  have e3 : Cert.ReferenceIdeal.Hand.w0aAt m' c = Cert.KernelIdeal.Hand.w0aAt m c :=
    funext fun k => funext fun j => congrFun a3 (ix2 k j)
  have e4 : Cert.ReferenceIdeal.Hand.hiddenAt m' c = Cert.KernelIdeal.Hand.hiddenAt m c :=
    funext fun k' => funext fun k => congrFun a4 (ix2 k' k)
  have e5 : Cert.ReferenceIdeal.Hand.lastAt m' c = Cert.KernelIdeal.Hand.lastAt m c :=
    funext fun k => funext fun r => congrFun a5 (ix2 k r)
  have e6 : Cert.ReferenceIdeal.Hand.biasAt m' c = Cert.KernelIdeal.Hand.biasAt m c :=
    funext fun r => funext fun j => congrFun a6 (ix2 r j)
  have e7 : Cert.ReferenceIdeal.Hand.lastBiasAt m' c = Cert.KernelIdeal.Hand.lastBiasAt m c :=
    funext fun r => congrFun a7 (ix2 r 0)
  have key : ∀ (r : Fin 2) (y : Fin 65536), Cert.ReferenceIdeal.Hand.outP m' c r y = Cert.KernelIdeal.Hand.outQ m c r y := by
    intro r y
    unfold Cert.ReferenceIdeal.Hand.outP Cert.KernelIdeal.Hand.outQ
    rw [e0, e1, e2, e3, e4, e5, e6, e7]
    exact criticPacked_eq_critic _ _ _ _ _ _ _ _ H r y
  exact ⟨h0.trans (funext fun i => key 0 _), h1.trans (funext fun i => key 1 _), hargs⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
